-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S1024x32x2 : Shape := ⟨3, ![1024, 32, 2]⟩
abbrev S1x1x1024x1024 : Shape := ⟨4, ![1, 1, 1024, 1024]⟩
abbrev S3072x2048 : Shape := ⟨2, ![3072, 2048]⟩
abbrev S2048x2048 : Shape := ⟨2, ![2048, 2048]⟩
abbrev S_ : Shape := ⟨0, ![]⟩
abbrev S1x1x1024 : Shape := ⟨3, ![1, 1, 1024]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S1024x32x2 : S_.BroadcastsInDim S1024x32x2 (![] : Fin 0 → Fin S1024x32x2.rank)
  reducesTo_S1024x32x2_S_d0_1_2 : S1024x32x2.ReducesTo [0, 1, 2] S_
  bcast_S_S3072x2048 : S_.BroadcastsInDim S3072x2048 (![] : Fin 0 → Fin S3072x2048.rank)
  reducesTo_S3072x2048_S_d0_1 : S3072x2048.ReducesTo [0, 1] S_
  bcast_S_S2048x2048 : S_.BroadcastsInDim S2048x2048 (![] : Fin 0 → Fin S2048x2048.rank)
  reducesTo_S2048x2048_S_d0_1 : S2048x2048.ReducesTo [0, 1] S_
  reducesTo_S1x1x1024x1024_S1x1x1024_d3 : S1x1x1024x1024.ReducesTo [3] S1x1x1024
  reducesTo_S1x1x1024_S_d0_1_2 : S1x1x1024.ReducesTo [0, 1, 2] S_

variable [Facts]

def fn_part1 {F : FTy → Type} [FloatOps F] (main_arg2 : IVec S1x1x1024x1024 1) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_c_6 : IVec S_ 1 := constantI S_ 1 0#1
  let main_v19 : IVec S1x1x1024 1 := (fun x v => Host.reduce IntOp.ori x v reducesTo_S1x1x1024x1024_S1x1x1024_d3 h_S_) main_arg2 main_c_6
  let main_c_7 : IVec S_ 1 := constantI S_ 1 1#1
  let main_v20 : IVec S_ 1 := (fun x v => Host.reduce IntOp.andi x v reducesTo_S1x1x1024_S_d0_1_2 h_S_) main_v19 main_c_7
  let main_v21 : IVec S_ 1 := andi main_v18 main_v20
  main_v21

def fn {F : FTy → Type} [FloatOps F] (main_arg0 : FVec F S4x1024x2048 .f32) (main_arg1 : FVec F S1024x32x2 .f32) (main_arg2 : IVec S1x1x1024x1024 1) (main_arg3 : FVec F S3072x2048 .f32) (main_arg4 : FVec F S2048x2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S1024x32x2 .f32 := Host.absf main_arg1
  let main_cst_0 : FVec F S_ .f32 := constant S_ .f32 0x7F800000#32
  let main_v5 : FVec F S1024x32x2 .f32 := broadcastInDim S1024x32x2 ![] bcast_S_S1024x32x2 main_cst_0
  let main_v6 : IVec S1024x32x2 1 := cmpf .olt main_v4 main_v5
  let main_c_1 : IVec S_ 1 := constantI S_ 1 1#1
  let main_v7 : IVec S_ 1 := (fun x v => Host.reduce IntOp.andi x v reducesTo_S1024x32x2_S_d0_1_2 h_S_) main_v6 main_c_1
  let main_v8 : IVec S_ 1 := andi main_v3 main_v7
  let main_v9 : FVec F S3072x2048 .f32 := Host.absf main_arg3
  let main_cst_2 : FVec F S_ .f32 := constant S_ .f32 0x7F800000#32
  let main_v10 : FVec F S3072x2048 .f32 := broadcastInDim S3072x2048 ![] bcast_S_S3072x2048 main_cst_2
  let main_v11 : IVec S3072x2048 1 := cmpf .olt main_v9 main_v10
  let main_c_3 : IVec S_ 1 := constantI S_ 1 1#1
  let main_v12 : IVec S_ 1 := (fun x v => Host.reduce IntOp.andi x v reducesTo_S3072x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg2 main_v13 main_v16
-- ==== Kernel.lean ====
abbrev S4x1024x2048 : Shape := ⟨3, ![4, 1024, 2048]⟩
abbrev S1024x32x2 : Shape := ⟨3, ![1024, 32, 2]⟩
abbrev S1x1x1024x1024 : Shape := ⟨4, ![1, 1, 1024, 1024]⟩
abbrev S3072x2048 : Shape := ⟨2, ![3072, 2048]⟩
abbrev S2048x2048 : Shape := ⟨2, ![2048, 2048]⟩
abbrev S4096x2048 : Shape := ⟨2, ![4096, 2048]⟩
abbrev S4096x3072 : Shape := ⟨2, ![4096, 3072]⟩
abbrev S256x2048 : Shape := ⟨2, ![256, 2048]⟩
abbrev S1024x2048 : Shape := ⟨2, ![1024, 2048]⟩
abbrev S256x1024 : Shape := ⟨2, ![256, 1024]⟩
abbrev S4x1024x3072 : Shape := ⟨3, ![4, 1024, 3072]⟩
abbrev S4x1024x32x64 : Shape := ⟨4, ![4, 1024, 32, 64]⟩
abbrev S4x1024x512 : Shape := ⟨3, ![4, 1024, 512]⟩
abbrev S4x1024x8x64 : Shape := ⟨4, ![4, 1024, 8, 64]⟩
abbrev S4x1024x32x32x2 : Shape := ⟨5, ![4, 1024, 32, 32, 2]⟩
abbrev S1x1024x1x32x2 : Shape := ⟨5, ![1, 1024, 1, 32, 2]⟩
abbrev S1x1024x1x32x1 : Shape := ⟨5, ![1, 1024, 1, 32, 1]⟩
abbrev S1x1024x1x32 : Shape := ⟨4, ![1, 1024, 1, 32]⟩
abbrev S4x1024x32x32x1 : Shape := ⟨5, ![4, 1024, 32, 32, 1]⟩
abbrev S4x1024x32x32 : Shape := ⟨4, ![4, 1024, 32, 32]⟩
abbrev S4x1024x8x32x2 : Shape := ⟨5, ![4, 1024, 8, 32, 2]⟩
abbrev S4x1024x8x32x1 : Shape := ⟨5, ![4, 1024, 8, 32, 1]⟩
abbrev S4x1024x8x32 : Shape := ⟨4, ![4, 1024, 8, 32]⟩
abbrev S4x32x1024x64 : Shape := ⟨4, ![4, 32, 1024, 64]⟩
abbrev S4x8x1024x64 : Shape := ⟨4, ![4, 8, 1024, 64]⟩
abbrev S1x4x1024x64 : Shape := ⟨4, ![1, 4, 1024, 64]⟩
abbrev S1x1x1024x64 : Shape := ⟨4, ![1, 1, 1024, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 75
  | .vmem => 21
  | .smem => 0
  | _ => 0

abbrev bufTy : (tb : Table) → Fin (tcTables nBuf tb) → BufTy
  | .hbm, ⟨0, _⟩ => ⟨S4x1024x2048, .f32⟩
  | .hbm, ⟨1, _⟩ => ⟨S1024x32x2, .f32⟩
  | .hbm, ⟨2, _⟩ => ⟨S1x1x1024x1024, .i1⟩
  | .hbm, ⟨3, _⟩ => ⟨S3072x2048, .f32⟩
  | .hbm, ⟨4, _⟩ => ⟨S2048x2048, .f32⟩
  | .hbm, ⟨5, _⟩ => ⟨S4096x2048, .f32⟩
  | .hbm, ⟨6, _⟩ => ⟨S4096x3072, .bf16⟩
  | .hbm, ⟨7, _⟩ => ⟨S4x1024x3072, .bf16⟩
  | .hbm, ⟨8, _⟩ => ⟨S4x1024x2048, .bf16⟩
  | .hbm, ⟨9, _⟩ => ⟨S4x1024x32x64, .bf16⟩
  | .hbm, ⟨10, _⟩ => ⟨S4x1024x512, .bf16⟩
  | .hbm, ⟨11, _⟩ => ⟨S4x1024x8x64, .bf16⟩
  | .hbm, ⟨12, _⟩ => ⟨S4x1024x512, .bf16⟩
  | .hbm, ⟨13, _⟩ => ⟨S4x1024x8x64, .bf16⟩
  | .hbm, ⟨14, _⟩ => ⟨S4x1024x32x64, .f32⟩
  | .hbm, ⟨15, _⟩ => ⟨S4x1024x32x32x2, .f32⟩
  | .hbm, ⟨16, _⟩ => ⟨S1x1024x1x32x2, .f32⟩
  | .hbm, ⟨17, _⟩ => ⟨S1x1024x1x32x1, .f32⟩
  | .hbm, ⟨18, _⟩ => ⟨S1x1024x1x32, .f32⟩
  | .hbm, ⟨19, _⟩ => ⟨S1x1024x1x32x1, .f32⟩
  | .hbm, ⟨20, _⟩ => ⟨S1x1024x1x32, .f32⟩
  | .hbm, ⟨21, _⟩ => ⟨S4x1024x32x32x1, .f32⟩
  | .hbm, ⟨22, _⟩ => ⟨S4x1024x32x32, .f32⟩
  | .hbm, ⟨23, _⟩ => ⟨S4x1024x32x32x1, .f32⟩
  | .hbm, ⟨24, _⟩ => ⟨S4x1024x32x32, .f32⟩
  | .hbm, ⟨25, _⟩ => ⟨S4x1024x32x32, .f32⟩
  | .hbm, ⟨26, _⟩ => ⟨S4x1024x32x32, .f32⟩
  | .hbm, ⟨27, _⟩ => ⟨S4x1024x32x32, .f32⟩
  | .hbm, ⟨28, _⟩ => ⟨S4x1024x32x32, .f32⟩
  | .hbm, ⟨29, _⟩ => ⟨S4x1024x32x32, .f32⟩
  | .hbm, ⟨30, _⟩ => ⟨S4x1024x32x32, .f32⟩
  | .hbm, ⟨31, _⟩ => ⟨S4x1024x32x32, .f32⟩
  | .hbm, ⟨32, _⟩ => ⟨S4x1024x32x32, .f32⟩
  | .hbm, ⟨33, _⟩ => ⟨S4x1024x32x32, .f32⟩
  | .hbm, ⟨34, _⟩ => ⟨S4x1024x32x32, .f32⟩
  | .hbm, ⟨35, _⟩ => ⟨S4x1024x32x32x1, .f32⟩
  | .hbm, ⟨36, _⟩ => ⟨S4x1024x32x32x1, .f32⟩
  | .hbm, ⟨37, _⟩ => ⟨S4x1024x32x32x2, .f32⟩
  | .hbm, ⟨38, _⟩ => ⟨S4x1024x32x64, .f32⟩
  | .hbm, ⟨39, _⟩ => ⟨S4x1024x32x64, .bf16⟩
  | .hbm, ⟨40, _⟩ => ⟨S4x1024x8x64, .f32⟩
  | .hbm, ⟨41, _⟩ => ⟨S4x1024x8x32x2, .f32⟩
  | .hbm, ⟨42, _⟩ => ⟨S1x1024x1x32x2, .f32⟩
  | .hbm, ⟨43, _⟩ => ⟨S1x1024x1x32x1, .f32⟩
  | .hbm, ⟨44, _⟩ => ⟨S1x1024x1x32, .f32⟩
  | .hbm, ⟨45, _⟩ => ⟨S1x1024x1x32x1, .f32⟩
  | .hbm, ⟨46, _⟩ => ⟨S1x1024x1x32, .f32⟩
  | .hbm, ⟨47, _⟩ => ⟨S4x1024x8x32x1, .f32⟩
  | .hbm, ⟨48, _⟩ => ⟨S4x1024x8x32, .f32⟩
  | .hbm, ⟨49, _⟩ => ⟨S4x1024x8x32x1, .f32⟩
  | .hbm, ⟨50, _⟩ => ⟨S4x1024x8x32, .f32⟩
  | .hbm, ⟨51, _⟩ => ⟨S4x1024x8x32, .f32⟩
  | .hbm, ⟨52, _⟩ => ⟨S4x1024x8x32, .f32⟩
  | .hbm, ⟨53, _⟩ => ⟨S4x1024x8x32, .f32⟩
  | .hbm, ⟨54, _⟩ => ⟨S4x1024x8x32, .f32⟩
  | .hbm, ⟨55, _⟩ => ⟨S4x1024x8x32, .f32⟩
  | .hbm, ⟨56, _⟩ => ⟨S4x1024x8x32, .f32⟩
  | .hbm, ⟨57, _⟩ => ⟨S4x1024x8x32, .f32⟩
  | .hbm, ⟨58, _⟩ => ⟨S4x1024x8x32, .f32⟩
  | .hbm, ⟨59, _⟩ => ⟨S4x1024x8x32, .f32⟩
  | .hbm, ⟨60, _⟩ => ⟨S4x1024x8x32, .f32⟩
  | .hbm, ⟨61, _⟩ => ⟨S4x1024x8x32x1, .f32⟩
  | .hbm, ⟨62, _⟩ => ⟨S4x1024x8x32x1, .f32⟩
  | .hbm, ⟨63, _⟩ => ⟨S4x1024x8x32x2, .f32⟩
  | .hbm, ⟨64, _⟩ => ⟨S4x1024x8x64, .f32⟩
  | .hbm, ⟨65, _⟩ => ⟨S4x1024x8x64, .bf16⟩
  | .hbm, ⟨66, _⟩ => ⟨S4x32x1024x64, .bf16⟩
  | .hbm, ⟨67, _⟩ => ⟨S4x8x1024x64, .bf16⟩
  | .hbm, ⟨68, _⟩ => ⟨S4x8x1024x64, .bf16⟩
  | .hbm, ⟨69, _⟩ => ⟨S1x1x1024x1024, .i32⟩
  | .hbm, ⟨70, _⟩ => ⟨S4x32x1024x64, .bf16⟩
  | .hbm, ⟨71, _⟩ => ⟨S4x1024x32x64, .bf16⟩
  | .hbm, ⟨72, _⟩ => ⟨S4096x2048, .bf16⟩
  | .hbm, ⟨73, _⟩ => ⟨S4096x2048, .f32⟩
  | .hbm, ⟨74, _⟩ => ⟨S4x1024x2048, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S1024x2048, .f32⟩
  | .local _ .vmem, ⟨4, _⟩ => ⟨S256x1024, .bf16⟩
  | .local _ .vmem, ⟨5, _⟩ => ⟨S256x1024, .bf16⟩
  | .local _ .vmem, ⟨6, _⟩ => ⟨S1x4x1024x64, .bf16⟩
  | .local _ .vmem, ⟨7, _⟩ => ⟨S1x4x1024x64, .bf16⟩
  | .local _ .vmem, ⟨8, _⟩ => ⟨S1x1x1024x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x1024x64, .bf16⟩
  | .local _ .vmem, ⟨12, _⟩ => ⟨S1x1x1024x1024, .i32⟩
  | .local _ .vmem, ⟨13, _⟩ => ⟨S1x4x1024x64, .bf16⟩
  | .local _ .vmem, ⟨14, _⟩ => ⟨S1x4x1024x64, .bf16⟩
  | .local _ .vmem, ⟨15, _⟩ => ⟨S256x2048, .bf16⟩
  | .local _ .vmem, ⟨16, _⟩ => ⟨S256x2048, .bf16⟩
  | .local _ .vmem, ⟨17, _⟩ => ⟨S1024x2048, .f32⟩
  | .local _ .vmem, ⟨18, _⟩ => ⟨S1024x2048, .f32⟩
  | .local _ .vmem, ⟨19, _⟩ => ⟨S256x1024, .f32⟩
  | .local _ .vmem, ⟨20, _⟩ => ⟨S256x1024, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1x1024x1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4x1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S4x1024x2048_S4096x2048 : S4x1024x2048.ShapeCasts S4096x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  shapeCasts_S4096x3072_S4x1024x3072 : S4096x3072.ShapeCasts S4x1024x3072
  slices_S4x1024x3072_S4x1024x2048_0_0_0 : S4x1024x3072.Slices ![0, 0, 0] S4x1024x2048
  shapeCasts_S4x1024x2048_S4x1024x32x64 : S4x1024x2048.ShapeCasts S4x1024x32x64
  slices_S4x1024x3072_S4x1024x512_0_0_2048 : S4x1024x3072.Slices ![0, 0, 2048] S4x1024x512
  shapeCasts_S4x1024x512_S4x1024x8x64 : S4x1024x512.ShapeCasts S4x1024x8x64
  slices_S4x1024x3072_S4x1024x512_0_0_2560 : S4x1024x3072.Slices ![0, 0, 2560] S4x1024x512
  shapeCasts_S4x1024x32x64_S4x1024x32x32x2 : S4x1024x32x64.ShapeCasts S4x1024x32x32x2
  shapeCasts_S1024x32x2_S1x1024x1x32x2 : S1024x32x2.ShapeCasts S1x1024x1x32x2
  slices_S1x1024x1x32x2_S1x1024x1x32x1_0_0_0_0_0 : S1x1024x1x32x2.Slices ![0, 0, 0, 0, 0] S1x1024x1x32x1
  shapeCasts_S1x1024x1x32x1_S1x1024x1x32 : S1x1024x1x32x1.ShapeCasts S1x1024x1x32
  slices_S1x1024x1x32x2_S1x1024x1x32x1_0_0_0_0_1 : S1x1024x1x32x2.Slices ![0, 0, 0, 0, 1] S1x1024x1x32x1
  slices_S4x1024x32x32x2_S4x1024x32x32x1_0_0_0_0_0 : S4x1024x32x32x2.Slices ![0, 0, 0, 0, 0] S4x1024x32x32x1
  shapeCasts_S4x1024x32x32x1_S4x1024x32x32 : S4x1024x32x32x1.ShapeCasts S4x1024x32x32
  slices_S4x1024x32x32x2_S4x1024x32x32x1_0_0_0_0_1 : S4x1024x32x32x2.Slices ![0, 0, 0, 0, 1] S4x1024x32x32x1
  bcast_S1x1024x1x32_S4x1024x32x32_0_1_2_3 : S1x1024x1x32.BroadcastsInDim S4x1024x32x32 (![0, 1, 2, 3] : Fin 4 → Fin S4x1024x32x32.rank)
  bcast_S4x1024x32x32_S4x1024x32x32x1_0_1_2_3 : S4x1024x32x32.BroadcastsInDim S4x1024x32x32x1 (![0, 1, 2, 3] : Fin 4 → Fin S4x1024x32x32x1.rank)
  concatenates_S4x1024x32x32x1_S4x1024x32x32x1_S4x1024x32x32x2_d4 : Shape.Concatenates [S4x1024x32x32x1, S4x1024x32x32x1] S4x1024x32x32x2 4
  shapeCasts_S4x1024x32x32x2_S4x1024x32x64 : S4x1024x32x32x2.ShapeCasts S4x1024x32x64
  shapeCasts_S4x1024x8x64_S4x1024x8x32x2 : S4x1024x8x64.ShapeCasts S4x1024x8x32x2
  slices_S4x1024x8x32x2_S4x1024x8x32x1_0_0_0_0_0 : S4x1024x8x32x2.Slices ![0, 0, 0, 0, 0] S4x1024x8x32x1
  shapeCasts_S4x1024x8x32x1_S4x1024x8x32 : S4x1024x8x32x1.ShapeCasts S4x1024x8x32
  slices_S4x1024x8x32x2_S4x1024x8x32x1_0_0_0_0_1 : S4x1024x8x32x2.Slices ![0, 0, 0, 0, 1] S4x1024x8x32x1
  bcast_S1x1024x1x32_S4x1024x8x32_0_1_2_3 : S1x1024x1x32.BroadcastsInDim S4x1024x8x32 (![0, 1, 2, 3] : Fin 4 → Fin S4x1024x8x32.rank)
  bcast_S4x1024x8x32_S4x1024x8x32x1_0_1_2_3 : S4x1024x8x32.BroadcastsInDim S4x1024x8x32x1 (![0, 1, 2, 3] : Fin 4 → Fin S4x1024x8x32x1.rank)
  concatenates_S4x1024x8x32x1_S4x1024x8x32x1_S4x1024x8x32x2_d4 : Shape.Concatenates [S4x1024x8x32x1, S4x1024x8x32x1] S4x1024x8x32x2 4
  shapeCasts_S4x1024x8x32x2_S4x1024x8x64 : S4x1024x8x32x2.ShapeCasts S4x1024x8x64
  transposes_S4x1024x32x64_S4x32x1024x64_0_2_1_3 : S4x1024x32x64.Transposes [0, 2, 1, 3] S4x32x1024x64
  transposes_S4x1024x8x64_S4x8x1024x64_0_2_1_3 : S4x1024x8x64.Transposes [0, 2, 1, 3] S4x8x1024x64
  natLt_1_32 : 1 < 32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  inb_S1x4x1024x64_S1x1x1024x64_0_0_0_0 : ∀ a, (![0, 0, 0, 0] : Fin 4 → Nat) a + S1x1x1024x64.size a ≤ S1x4x1024x64.size a
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1x1024x64 : S1024x64.ShapeCasts S1x1x1024x64
  packedbf16_S1x4x1024x64_S1x1x1024x64_0_0_0_0 : (Rect.unit (s := S1x4x1024x64) ![0, 0, 0, 0] S1x1x1024x64.size inb_S1x4x1024x64_S1x1x1024x64_0_0_0_0).PackedRows (EltTy.packing .bf16)
  inb_S1x4x1024x64_S1x1x1024x64_0_1_0_0 : ∀ a, (![0, 1, 0, 0] : Fin 4 → Nat) a + S1x1x1024x64.size a ≤ S1x4x1024x64.size a
  packedbf16_S1x4x1024x64_S1x1x1024x64_0_1_0_0 : (Rect.unit (s := S1x4x1024x64) ![0, 1, 0, 0] S1x1x1024x64.size inb_S1x4x1024x64_S1x1x1024x64_0_1_0_0).PackedRows (EltTy.packing .bf16)
  inb_S1x4x1024x64_S1x1x1024x64_0_2_0_0 : ∀ a, (![0, 2, 0, 0] : Fin 4 → Nat) a + S1x1x1024x64.size a ≤ S1x4x1024x64.size a
  packedbf16_S1x4x1024x64_S1x1x1024x64_0_2_0_0 : (Rect.unit (s := S1x4x1024x64) ![0, 2, 0, 0] S1x1x1024x64.size inb_S1x4x1024x64_S1x1x1024x64_0_2_0_0).PackedRows (EltTy.packing .bf16)
  inb_S1x4x1024x64_S1x1x1024x64_0_3_0_0 : ∀ a, (![0, 3, 0, 0] : Fin 4 → Nat) a + S1x1x1024x64.size a ≤ S1x4x1024x64.size a
  packedbf16_S1x4x1024x64_S1x1x1024x64_0_3_0_0 : (Rect.unit (s := S1x4x1024x64) ![0, 3, 0, 0] S1x1x1024x64.size inb_S1x4x1024x64_S1x1x1024x64_0_3_0_0).PackedRows (EltTy.packing .bf16)
  transposes_S4x32x1024x64_S4x1024x32x64_0_2_1_3 : S4x32x1024x64.Transposes [0, 2, 1, 3] S4x1024x32x64
  shapeCasts_S4x1024x32x64_S4096x2048 : S4x1024x32x64.ShapeCasts S4096x2048
  shapeCasts_S4096x2048_S4x1024x2048 : S4096x2048.ShapeCasts S4x1024x2048
  dot_S256x2048_S1024x2048_S256x1024_1_1_0_0_n_n_wf : DotDims.WF S256x2048 S1024x2048 S256x1024 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S3072x2048.size a
  hwx0_1 : ∀ i : grid0.Coords, EltTy.bits .f32 = 32 ∨ (Rect.block (s := S3072x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x3072.size a
  hwx0_2 : ∀ i : grid0.Coords, EltTy.bits .bf16 = 32 ∨ (Rect.block (s := S4096x3072) S256x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x1024x64.size a ≤ S4x32x1024x64.size a
  hwx1_0 : ∀ i : grid1.Coords, EltTy.bits .bf16 = 32 ∨ (Rect.block (s := S4x32x1024x64) S1x4x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S4x8x1024x64.size a
  hwx1_1 : ∀ i : grid1.Coords, EltTy.bits .bf16 = 32 ∨ (Rect.block (s := S4x8x1024x64) S1x1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S4x8x1024x64.size a
  hwx1_2 : ∀ i : grid1.Coords, EltTy.bits .bf16 = 32 ∨ (Rect.block (s := S4x8x1024x64) S1x1x1024x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x1024x1024.size a ≤ S1x1x1024x1024.size a
  hwx1_3 : ∀ i : grid1.Coords, EltTy.bits .i32 = 32 ∨ (Rect.block (s := S1x1x1024x1024) S1x1x1024x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4x1024x64.size a ≤ S4x32x1024x64.size a
  hwx1_4 : ∀ i : grid1.Coords, EltTy.bits .bf16 = 32 ∨ (Rect.block (s := S4x32x1024x64) S1x4x1024x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .bf16 = 32 ∨ (Rect.block (s := S4096x2048) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x2048.size a
  hwx2_1 : ∀ i : grid2.Coords, EltTy.bits .f32 = 32 ∨ (Rect.block (s := S2048x2048) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S4096x2048.size a
  hwx2_2 : ∀ i : grid2.Coords, EltTy.bits .f32 = 32 ∨ (Rect.block (s := S4096x2048) S256x1024.size (cc2_transform_2 i) (hinb2_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v61) S1x4x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x1x1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x4x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x1024x2048 : Shape := ⟨3, ![4, 1024, 2048]⟩
abbrev S1024x32x2 : Shape := ⟨3, ![1024, 32, 2]⟩
abbrev S1x1x1024x1024 : Shape := ⟨4, ![1, 1, 1024, 1024]⟩
abbrev S3072x2048 : Shape := ⟨2, ![3072, 2048]⟩
abbrev S2048x2048 : Shape := ⟨2, ![2048, 2048]⟩
abbrev S4x1024x3072 : Shape := ⟨3, ![4, 1024, 3072]⟩
abbrev S4x1024x512 : Shape := ⟨3, ![4, 1024, 512]⟩
abbrev S4x1024x32x64 : Shape := ⟨4, ![4, 1024, 32, 64]⟩
abbrev S4x1024x8x64 : Shape := ⟨4, ![4, 1024, 8, 64]⟩
abbrev S4x1024x32x32x2 : Shape := ⟨5, ![4, 1024, 32, 32, 2]⟩
abbrev S1x1024x1x32x2 : Shape := ⟨5, ![1, 1024, 1, 32, 2]⟩
abbrev S1x1024x1x32x1 : Shape := ⟨5, ![1, 1024, 1, 32, 1]⟩
abbrev S1x1024x1x32 : Shape := ⟨4, ![1, 1024, 1, 32]⟩
abbrev S4x1024x32x32x1 : Shape := ⟨5, ![4, 1024, 32, 32, 1]⟩
abbrev S4x1024x32x32 : Shape := ⟨4, ![4, 1024, 32, 32]⟩
abbrev S4x1024x8x32x2 : Shape := ⟨5, ![4, 1024, 8, 32, 2]⟩
abbrev S4x1024x8x32x1 : Shape := ⟨5, ![4, 1024, 8, 32, 1]⟩
abbrev S4x1024x8x32 : Shape := ⟨4, ![4, 1024, 8, 32]⟩
abbrev S4x32x1024x64 : Shape := ⟨4, ![4, 32, 1024, 64]⟩
abbrev S4x8x1024x64 : Shape := ⟨4, ![4, 8, 1024, 64]⟩
abbrev S4x8x4x1024x64 : Shape := ⟨5, ![4, 8, 4, 1024, 64]⟩
abbrev S4x32x1024x1024 : Shape := ⟨4, ![4, 32, 1024, 1024]⟩
abbrev S_ : Shape := ⟨0, ![]⟩
abbrev S4x32x1024 : Shape := ⟨3, ![4, 32, 1024]⟩
abbrev S4x32x1024x1 : Shape := ⟨4, ![4, 32, 1024, 1]⟩

abbrev nBuf : Space → Nat
  | .hbm => 93
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S1024x32x2, .f32⟩
  | .hbm, ⟨2, _⟩ => ⟨S1x1x1024x1024, .i1⟩
  | .hbm, ⟨3, _⟩ => ⟨S3072x2048, .f32⟩
  | .hbm, ⟨4, _⟩ => ⟨S2048x2048, .f32⟩
  | .hbm, ⟨5, _⟩ => ⟨S4x1024x3072, .f32⟩
  | .hbm, ⟨6, _⟩ => ⟨S4x1024x2048, .f32⟩
  | .hbm, ⟨7, _⟩ => ⟨S4x1024x512, .f32⟩
  | .hbm, ⟨8, _⟩ => ⟨S4x1024x512, .f32⟩
  | .hbm, ⟨9, _⟩ => ⟨S4x1024x32x64, .f32⟩
  | .hbm, ⟨10, _⟩ => ⟨S4x1024x8x64, .f32⟩
  | .hbm, ⟨11, _⟩ => ⟨S4x1024x8x64, .f32⟩
  | .hbm, ⟨12, _⟩ => ⟨S4x1024x32x32x2, .f32⟩
  | .hbm, ⟨13, _⟩ => ⟨S1x1024x1x32x2, .f32⟩
  | .hbm, ⟨14, _⟩ => ⟨S1x1024x1x32x1, .f32⟩
  | .hbm, ⟨15, _⟩ => ⟨S1x1024x1x32, .f32⟩
  | .hbm, ⟨16, _⟩ => ⟨S1x1024x1x32x1, .f32⟩
  | .hbm, ⟨17, _⟩ => ⟨S1x1024x1x32, .f32⟩
  | .hbm, ⟨18, _⟩ => ⟨S4x1024x32x32x1, .f32⟩
  | .hbm, ⟨19, _⟩ => ⟨S4x1024x32x32, .f32⟩
  | .hbm, ⟨20, _⟩ => ⟨S4x1024x32x32x1, .f32⟩
  | .hbm, ⟨21, _⟩ => ⟨S4x1024x32x32, .f32⟩
  | .hbm, ⟨22, _⟩ => ⟨S4x1024x32x32, .f32⟩
  | .hbm, ⟨23, _⟩ => ⟨S4x1024x32x32, .f32⟩
  | .hbm, ⟨24, _⟩ => ⟨S4x1024x32x32, .f32⟩
  | .hbm, ⟨25, _⟩ => ⟨S4x1024x32x32, .f32⟩
  | .hbm, ⟨26, _⟩ => ⟨S4x1024x32x32, .f32⟩
  | .hbm, ⟨27, _⟩ => ⟨S4x1024x32x32, .f32⟩
  | .hbm, ⟨28, _⟩ => ⟨S4x1024x32x32, .f32⟩
  | .hbm, ⟨29, _⟩ => ⟨S4x1024x32x32, .f32⟩
  | .hbm, ⟨30, _⟩ => ⟨S4x1024x32x32, .f32⟩
  | .hbm, ⟨31, _⟩ => ⟨S4x1024x32x32, .f32⟩
  | .hbm, ⟨32, _⟩ => ⟨S4x1024x32x32x1, .f32⟩
  | .hbm, ⟨33, _⟩ => ⟨S4x1024x32x32x1, .f32⟩
  | .hbm, ⟨34, _⟩ => ⟨S4x1024x32x32x2, .f32⟩
  | .hbm, ⟨35, _⟩ => ⟨S4x1024x32x64, .f32⟩
  | .hbm, ⟨36, _⟩ => ⟨S4x1024x8x32x2, .f32⟩
  | .hbm, ⟨37, _⟩ => ⟨S1x1024x1x32x2, .f32⟩
  | .hbm, ⟨38, _⟩ => ⟨S1x1024x1x32x1, .f32⟩
  | .hbm, ⟨39, _⟩ => ⟨S1x1024x1x32, .f32⟩
  | .hbm, ⟨40, _⟩ => ⟨S1x1024x1x32x1, .f32⟩
  | .hbm, ⟨41, _⟩ => ⟨S1x1024x1x32, .f32⟩
  | .hbm, ⟨42, _⟩ => ⟨S4x1024x8x32x1, .f32⟩
  | .hbm, ⟨43, _⟩ => ⟨S4x1024x8x32, .f32⟩
  | .hbm, ⟨44, _⟩ => ⟨S4x1024x8x32x1, .f32⟩
  | .hbm, ⟨45, _⟩ => ⟨S4x1024x8x32, .f32⟩
  | .hbm, ⟨46, _⟩ => ⟨S4x1024x8x32, .f32⟩
  | .hbm, ⟨47, _⟩ => ⟨S4x1024x8x32, .f32⟩
  | .hbm, ⟨48, _⟩ => ⟨S4x1024x8x32, .f32⟩
  | .hbm, ⟨49, _⟩ => ⟨S4x1024x8x32, .f32⟩
  | .hbm, ⟨50, _⟩ => ⟨S4x1024x8x32, .f32⟩
  | .hbm, ⟨51, _⟩ => ⟨S4x1024x8x32, .f32⟩
  | .hbm, ⟨52, _⟩ => ⟨S4x1024x8x32, .f32⟩
  | .hbm, ⟨53, _⟩ => ⟨S4x1024x8x32, .f32⟩
  | .hbm, ⟨54, _⟩ => ⟨S4x1024x8x32, .f32⟩
  | .hbm, ⟨55, _⟩ => ⟨S4x1024x8x32, .f32⟩
  | .hbm, ⟨56, _⟩ => ⟨S4x1024x8x32x1, .f32⟩
  | .hbm, ⟨57, _⟩ => ⟨S4x1024x8x32x1, .f32⟩
  | .hbm, ⟨58, _⟩ => ⟨S4x1024x8x32x2, .f32⟩
  | .hbm, ⟨59, _⟩ => ⟨S4x1024x8x64, .f32⟩
  | .hbm, ⟨60, _⟩ => ⟨S4x32x1024x64, .f32⟩
  | .hbm, ⟨61, _⟩ => ⟨S4x8x1024x64, .f32⟩
  | .hbm, ⟨62, _⟩ => ⟨S4x8x1024x64, .f32⟩
  | .hbm, ⟨63, _⟩ => ⟨S4x8x4x1024x64, .f32⟩
  | .hbm, ⟨64, _⟩ => ⟨S4x32x1024x64, .f32⟩
  | .hbm, ⟨65, _⟩ => ⟨S4x8x4x1024x64, .f32⟩
  | .hbm, ⟨66, _⟩ => ⟨S4x32x1024x64, .f32⟩
  | .hbm, ⟨67, _⟩ => ⟨S4x32x1024x1024, .f32⟩
  | .hbm, ⟨68, _⟩ => ⟨S_, .f32⟩
  | .hbm, ⟨69, _⟩ => ⟨S4x32x1024x1024, .f32⟩
  | .hbm, ⟨70, _⟩ => ⟨S4x32x1024x1024, .f32⟩
  | .hbm, ⟨71, _⟩ => ⟨S_, .f32⟩
  | .hbm, ⟨72, _⟩ => ⟨S4x32x1024x1024, .i1⟩
  | .hbm, ⟨73, _⟩ => ⟨S4x32x1024x1024, .f32⟩
  | .hbm, ⟨74, _⟩ => ⟨S4x32x1024x1024, .f32⟩
  | .hbm, ⟨75, _⟩ => ⟨S_, .f32⟩
  | .hbm, ⟨76, _⟩ => ⟨S4x32x1024, .f32⟩
  | .hbm, ⟨77, _⟩ => ⟨S_, .f32⟩
  | .hbm, ⟨78, _⟩ => ⟨S4x32x1024, .f32⟩
  | .hbm, ⟨79, _⟩ => ⟨S4x32x1024, .f32⟩
  | .hbm, ⟨80, _⟩ => ⟨S4x32x1024x1, .f32⟩
  | .hbm, ⟨81, _⟩ => ⟨S4x32x1024x1024, .f32⟩
  | .hbm, ⟨82, _⟩ => ⟨S4x32x1024x1024, .f32⟩
  | .hbm, ⟨83, _⟩ => ⟨S4x32x1024x1024, .f32⟩
  | .hbm, ⟨84, _⟩ => ⟨S_, .f32⟩
  | .hbm, ⟨85, _⟩ => ⟨S4x32x1024, .f32⟩
  | .hbm, ⟨86, _⟩ => ⟨S4x32x1024x1, .f32⟩
  | .hbm, ⟨87, _⟩ => ⟨S4x32x1024x1024, .f32⟩
  | .hbm, ⟨88, _⟩ => ⟨S4x32x1024x1024, .f32⟩
  | .hbm, ⟨89, _⟩ => ⟨S4x32x1024x64, .f32⟩
  | .hbm, ⟨90, _⟩ => ⟨S4x1024x32x64, .f32⟩
  | .hbm, ⟨91, _⟩ => ⟨S4x1024x2048, .f32⟩
  | .hbm, ⟨92, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_cst : Ref sig .tc := ⟨.hbm, 68, rfl⟩
abbrev main_v63 : Ref sig .tc := ⟨.hbm, 69, rfl⟩
abbrev main_v64 : Ref sig .tc := ⟨.hbm, 70, rfl⟩
abbrev main_cst_0 : Ref sig .tc := ⟨.hbm, 71, rfl⟩
abbrev main_call0_v0 : Ref sig .tc := ⟨.hbm, 72, rfl⟩
abbrev main_call0_v1 : Ref sig .tc := ⟨.hbm, 73, rfl⟩
abbrev main_v65 : Ref sig .tc := ⟨.hbm, 74, rfl⟩
abbrev main_cst_1 : Ref sig .tc := ⟨.hbm, 75, rfl⟩
abbrev main_v66 : Ref sig .tc := ⟨.hbm, 76, rfl⟩
abbrev main_cst_2 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_3 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩

abbrev nD : Nat := 1
abbrev τ : Topo := Topo.v7x

variable {F : FTy → Type} [FloatOps F]

class Facts₀ : Prop where
  slices_S4x1024x3072_S4x1024x2048_0_0_0 : S4x1024x3072.Slices ![0, 0, 0] S4x1024x2048
  slices_S4x1024x3072_S4x1024x512_0_0_2048 : S4x1024x3072.Slices ![0, 0, 2048] S4x1024x512
  slices_S4x1024x3072_S4x1024x512_0_0_2560 : S4x1024x3072.Slices ![0, 0, 2560] S4x1024x512
  shapeCasts_S4x1024x2048_S4x1024x32x64 : S4x1024x2048.ShapeCasts S4x1024x32x64
  shapeCasts_S4x1024x512_S4x1024x8x64 : S4x1024x512.ShapeCasts S4x1024x8x64
  shapeCasts_S4x1024x32x64_S4x1024x32x32x2 : S4x1024x32x64.ShapeCasts S4x1024x32x32x2
  shapeCasts_S1024x32x2_S1x1024x1x32x2 : S1024x32x2.ShapeCasts S1x1024x1x32x2
  slices_S1x1024x1x32x2_S1x1024x1x32x1_0_0_0_0_0 : S1x1024x1x32x2.Slices ![0, 0, 0, 0, 0] S1x1024x1x32x1
  shapeCasts_S1x1024x1x32x1_S1x1024x1x32 : S1x1024x1x32x1.ShapeCasts S1x1024x1x32
  slices_S1x1024x1x32x2_S1x1024x1x32x1_0_0_0_0_1 : S1x1024x1x32x2.Slices ![0, 0, 0, 0, 1] S1x1024x1x32x1
  slices_S4x1024x32x32x2_S4x1024x32x32x1_0_0_0_0_0 : S4x1024x32x32x2.Slices ![0, 0, 0, 0, 0] S4x1024x32x32x1
  shapeCasts_S4x1024x32x32x1_S4x1024x32x32 : S4x1024x32x32x1.ShapeCasts S4x1024x32x32
  slices_S4x1024x32x32x2_S4x1024x32x32x1_0_0_0_0_1 : S4x1024x32x32x2.Slices ![0, 0, 0, 0, 1] S4x1024x32x32x1
  bcast_S1x1024x1x32_S4x1024x32x32_0_1_2_3 : S1x1024x1x32.BroadcastsInDim S4x1024x32x32 (![0, 1, 2, 3] : Fin 4 → Fin S4x1024x32x32.rank)
  bcast_S4x1024x32x32_S4x1024x32x32x1_0_1_2_3 : S4x1024x32x32.BroadcastsInDim S4x1024x32x32x1 (![0, 1, 2, 3] : Fin 4 → Fin S4x1024x32x32x1.rank)
  concatenates_S4x1024x32x32x1_S4x1024x32x32x1_S4x1024x32x32x2_d4 : Shape.Concatenates [S4x1024x32x32x1, S4x1024x32x32x1] S4x1024x32x32x2 4
  shapeCasts_S4x1024x32x32x2_S4x1024x32x64 : S4x1024x32x32x2.ShapeCasts S4x1024x32x64
  shapeCasts_S4x1024x8x64_S4x1024x8x32x2 : S4x1024x8x64.ShapeCasts S4x1024x8x32x2
  slices_S4x1024x8x32x2_S4x1024x8x32x1_0_0_0_0_0 : S4x1024x8x32x2.Slices ![0, 0, 0, 0, 0] S4x1024x8x32x1
  shapeCasts_S4x1024x8x32x1_S4x1024x8x32 : S4x1024x8x32x1.ShapeCasts S4x1024x8x32
  slices_S4x1024x8x32x2_S4x1024x8x32x1_0_0_0_0_1 : S4x1024x8x32x2.Slices ![0, 0, 0, 0, 1] S4x1024x8x32x1
  bcast_S1x1024x1x32_S4x1024x8x32_0_1_2_3 : S1x1024x1x32.BroadcastsInDim S4x1024x8x32 (![0, 1, 2, 3] : Fin 4 → Fin S4x1024x8x32.rank)
  bcast_S4x1024x8x32_S4x1024x8x32x1_0_1_2_3 : S4x1024x8x32.BroadcastsInDim S4x1024x8x32x1 (![0, 1, 2, 3] : Fin 4 → Fin S4x1024x8x32x1.rank)
  concatenates_S4x1024x8x32x1_S4x1024x8x32x1_S4x1024x8x32x2_d4 : Shape.Concatenates [S4x1024x8x32x1, S4x1024x8x32x1] S4x1024x8x32x2 4
  shapeCasts_S4x1024x8x32x2_S4x1024x8x64 : S4x1024x8x32x2.ShapeCasts S4x1024x8x64
  transposes_S4x1024x32x64_S4x32x1024x64_0_2_1_3 : S4x1024x32x64.Transposes [0, 2, 1, 3] S4x32x1024x64
  transposes_S4x1024x8x64_S4x8x1024x64_0_2_1_3 : S4x1024x8x64.Transposes [0, 2, 1, 3] S4x8x1024x64
  bcast_S4x8x1024x64_S4x8x4x1024x64_0_1_3_4 : S4x8x1024x64.BroadcastsInDim S4x8x4x1024x64 (![0, 1, 3, 4] : Fin 4 → Fin S4x8x4x1024x64.rank)
  shapeCasts_S4x8x4x1024x64_S4x32x1024x64 : S4x8x4x1024x64.ShapeCasts S4x32x1024x64
  bcast_S_S4x32x1024x1024 : S_.BroadcastsInDim S4x32x1024x1024 (![] : Fin 0 → Fin S4x32x1024x1024.rank)
  bcast_S1x1x1024x1024_S4x32x1024x1024_0_1_2_3 : S1x1x1024x1024.BroadcastsInDim S4x32x1024x1024 (![0, 1, 2, 3] : Fin 4 → Fin S4x32x1024x1024.rank)
  reducesTo_S4x32x1024x1024_S4x32x1024_d3 : S4x32x1024x1024.ReducesTo [3] S4x32x1024
  h_S_ : 0 < S_.numel
  bcast_S_S4x32x1024 : S_.BroadcastsInDim S4x32x1024 (![] : Fin 0 → Fin S4x32x1024.rank)
  bcast_S4x32x1024_S4x32x1024x1_0_1_2 : S4x32x1024.BroadcastsInDim S4x32x1024x1 (![0, 1, 2] : Fin 3 → Fin S4x32x1024x1.rank)
  bcast_S4x32x1024x1_S4x32x1024x1024_0_1_2_3 : S4x32x1024x1.BroadcastsInDim S4x32x1024x1024 (![0, 1, 2, 3] : Fin 4 → Fin S4x32x1024x1024.rank)
  transposes_S4x32x1024x64_S4x1024x32x64_0_2_1_3 : S4x32x1024x64.Transposes [0, 2, 1, 3] S4x1024x32x64
  shapeCasts_S4x1024x32x64_S4x1024x2048 : S4x1024x32x64.ShapeCasts S4x1024x2048
  dot_S4x1024x2048_S3072x2048_S4x1024x3072_2_1_01_0_n_n_wf : DotDims.WF S4x1024x2048 S3072x2048 S4x1024x3072 [2] [1] [0, 1] [0] [] []
  dot_S4x32x1024x64_S4x32x1024x64_S4x32x1024x1024_3_3_2_2_01_01_wf : DotDims.WF S4x32x1024x64 S4x32x1024x64 S4x32x1024x1024 [3] [3] [2] [2] [0, 1] [0, 1]
  dot_S4x32x1024x1024_S4x32x1024x64_S4x32x1024x64_3_2_2_3_01_01_wf : DotDims.WF S4x32x1024x1024 S4x32x1024x64 S4x32x1024x64 [3] [2] [2] [3] [0, 1] [0, 1]
  dot_S4x1024x2048_S2048x2048_S4x1024x2048_2_1_01_0_n_n_wf : DotDims.WF S4x1024x2048 S2048x2048 S4x1024x2048 [2] [1] [0, 1] [0] [] []

variable [Facts₀]

def dot_S4x1024x2048_S3072x2048_S4x1024x3072_2_1_01_0_n_n : DotDims S4x1024x2048 S3072x2048 S4x1024x3072 where
  lhsContracting := [2]
  rhsContracting := [1]
  lhsNonContracting := [0, 1]
  rhsNonContracting := [0]
  lhsBatch := []
  rhsBatch := []
  wf := dot_S4x1024x2048_S3072x2048_S4x1024x3072_2_1_01_0_n_n_wf
def dot_S4x32x1024x64_S4x32x1024x64_S4x32x1024x1024_3_3_2_2_01_01 : DotDims S4x32x1024x64 S4x32x1024x64 S4x32x1024x1024 where
  lhsContracting := [3]
  rhsContracting := [3]
  lhsNonContracting := [2]
  rhsNonContracting := [2]
  lhsBatch := [0, 1]
  rhsBatch := [0, 1]
  wf := dot_S4x32x1024x64_S4x32x1024x64_S4x32x1024x1024_3_3_2_2_01_01_wf
def dot_S4x32x1024x1024_S4x32x1024x64_S4x32x1024x64_3_2_2_3_01_01 : DotDims S4x32x1024x1024 S4x32x1024x64 S4x32x1024x64 where
  lhsContracting := [3]
  rhsContracting := [2]
  lhsNonContracting := [2]
  rhsNonContracting := [3]
  lhsBatch := [0, 1]
  rhsBatch := [0, 1]
  wf := dot_S4x32x1024x1024_S4x32x1024x64_S4x32x1024x64_3_2_2_3_01_01_wf
def dot_S4x1024x2048_S2048x2048_S4x1024x2048_2_1_01_0_n_n : DotDims S4x1024x2048 S2048x2048 S4x1024x2048 where
  lhsContracting := [2]
  rhsContracting := [1]
  lhsNonContracting := [0, 1]
  rhsNonContracting := [0]
  lhsBatch := []
  rhsBatch := []
  wf := dot_S4x1024x2048_S2048x2048_S4x1024x2048_2_1_01_0_n_n_wf

class Facts : Prop extends Facts₀ where

variable [Facts]
-- ==== Proof.KernelRun.lean ====
/-
  The idealized kernel's run with its result named.

  The program is three pipelined regions among four stretches of host operations. The generated frame proof carries, segment
  by segment, the contents of every unscoped buffer; at the return they are `Gen.W7 m ρ c`. Read at the argument arrays
  this is the frame claim; read ALSO at the result buffer it says what the run computes: the result is the last stretch's
  operation applied to what the third region leaves.
-/
import proofs.«134167_j73263552135848_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents the
    segment fold gives it, and the argument arrays end as launched. -/
theorem run : θ_run defs (onTc (τ := τ) (main (F := F))) ⟨m, fun _ => 0, ρ⟩ (fun r => ∀ c : Dev nD,
      r.2.mem ((c.tc : Thread nD τ).loc main_v69) = W7 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v69 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Whole

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.ProjRegion.lean ====
/-
  The two matrix-product regions of the idealized kernel, from tiles to the whole array.

  Regions 0 and 2 each compute C[M, N] = A[M, K] · B[N, K]ᵀ ("rows against rows", K = 2048) tile by tile. The grid point
  (s, r) of a region stages rows 256 r … 256 r + 255 of A (all K columns) and rows 1024 s … 1024 s + 1023 of B (all K
  columns), and writes back the 256 × 1024 tile of C at row tile r and column tile s. The body's stored value is one
  product of the two staged blocks into a zero accumulator; at the extended reals the changes of number format around
  it are the identity. So entry (p, q) of the tile is row p of A's block against row q of B's block, that is, row
  256 r + p of A against row 1024 s + q of B: the tile is the restriction of ONE whole-array function, the product. The
  tiles of all grid points cover the output array, so after all write-backs the array is that product, entry by entry.

  Region 0: A = main_v0 [4096, 2048], B = main_arg3 [3072, 2048], C = main_v1 [4096, 3072]; 16 row tiles, 3 column tiles.
  Region 2: A = main_v67 [4096, 2048], B = main_arg4 [2048, 2048], C = main_v68 [4096, 2048]; 16 row tiles, 2 column tiles.
-/
import proofs.«134167_j73263552135848_2_alg».proof.Proof.Gen.KernelIdeal.Frame
import proofs.«134167_j73263552135848_2_alg».proof.Proof.LibMatmulNT
import Idealize.ShloMosaic.Lib.Pipeline.Value
import Idealize.ShloMosaic.Lib.ValueIdx

noncomputable section

namespace Cert.KernelIdeal.ProjRegion

open Cert.KernelIdeal Cert.KernelIdeal.Gen Idealize.ShloMosaic Idealize.ShloMosaic.ValueIdx Idealize.ShloMosaic.TcCoe Idealize.SL.Sem
open Idealize.ShloMosaic.Pipeline (Dat)

-- the buffers' contents when a region is entered: every statement below holds at any such contents
variable (V : (c : Dev nD) → (b : Ref sig .tc) → Buf (Elt Ideal) ((c : Thread nD τ).loc b))

/-! ## One tile of a product "rows against rows"

The body multiplies a 256-row block of the left factor (all 2048 columns) with a 1024-row block of the right factor
(all 2048 columns), contracting the columns of both: entry (p, q) of the 256 × 1024 tile is row p of the first block
against row q of the second. The changes of number format on the way in and out are the identity on the extended reals. -/

theorem zero_offsets : (![0, 0] : Fin 2 → Nat) = fun _ => 0 := funext fun a => by fin_cases a <;> rfl

/-- Entry (p, q) of the tile the first product's body stores. -/
theorem qkv_tile_entry (x0 : Vec Ideal S256x2048 .f32) (x1 : Vec Ideal S1024x2048 .f32) (p : Fin 256) (q : Fin 1024) :
    k0_pay1 (F := Ideal) x0 x1 (ix2 p q) = ∑ e : Fin 2048, x0 (ix2 p e) * x1 (ix2 q e) := by
  unfold k0_pay1
  simp only [shapeCast_self]
  exact Cert.LibMatmulNT.matmul_zero_apply dot_S256x2048_S1024x2048_S256x1024_1_1_0_0_n_n.wf none _ _ p q

/-! ## The first product: [4096, 2048] against [3072, 2048], into [4096, 3072] -/

/-- The whole product: entry (r, s) is row r of the left factor against row s of the right factor. -/
abbrev qkvProduct (A : S4096x2048.Idx → EReal) (B : S3072x2048.Idx → EReal) : S4096x3072.Idx → EReal :=
  fun i => ∑ e : Fin 2048, A (ix2 (n0 := 4096) (i 0) e) * B (ix2 (n0 := 3072) (i 1) e)

/-- The tiles' positions, decided over the 48 grid points: the left factor's row block is the output's row tile and
    the right factor's row block is the output's column tile, both blocks spanning all the contracted columns; there
    are 16 row tiles and 3 column tiles. -/
theorem qkv_tile_positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 2 :=
  (by decide +kernel : ∀ t : Fin grid0.N, _)

/-- Every (row tile, column tile) pair is some grid point's. -/
theorem qkv_tile_onto : ∀ (r : Fin 16) (s : Fin 3), ∃ t : Fin cfg0.N, win0_2.index t = ![r.val, s.val] :=
  (by decide +kernel : ∀ (r : Fin 16) (s : Fin 3), ∃ t : Fin grid0.N, win0_2.index t = ![r.val, s.val])

/-- Row p, column e of the left factor's block at point t is the factor's entry at row (row tile) * 256 + p. -/
theorem qkv_lhs_block (c : Dev nD) (t : Fin cfg0.N) (p : Fin 256) (e : Fin 2048) (i : S4096x2048.Idx)
    (h0 : (i 0).val = win0_2.index t (0 : Fin 2) * 256 + p.val) (h1 : (i 1).val = e.val) :
    (iblk0 V c 0 t : Vec Ideal S256x2048 .f32) (ix2 p e) = (V c main_v0 : S4096x2048.Idx → EReal) i := by
  obtain ⟨e0, e1, -, -, -, -⟩ := qkv_tile_positions t
  show (V c main_v0 : S4096x2048.Idx → EReal) (((cfg0.win 0).blk t).view.emb (ix2 p e)) = _
  refine congrArg _ (funext fun a => Fin.ext ?_)
  match a with
  | ⟨0, _⟩ => show win0_0.index t (0 : Fin 2) * 256 + 1 * p.val = (i 0).val; omega
  | ⟨1, _⟩ => show win0_0.index t (1 : Fin 2) * 2048 + 1 * e.val = (i 1).val; omega

/-- Row q, column e of the right factor's block at point t is the factor's entry at row (column tile) * 1024 + q. -/
theorem qkv_rhs_block (c : Dev nD) (t : Fin cfg0.N) (q : Fin 1024) (e : Fin 2048) (i : S3072x2048.Idx)
    (h0 : (i 0).val = win0_2.index t (1 : Fin 2) * 1024 + q.val) (h1 : (i 1).val = e.val) :
    (iblk0 V c 1 t : Vec Ideal S1024x2048 .f32) (ix2 q e) = (V c main_arg3 : S3072x2048.Idx → EReal) i := by
  obtain ⟨-, -, e2, e3, -, -⟩ := qkv_tile_positions t
  show (V c main_arg3 : S3072x2048.Idx → EReal) (((cfg0.win 1).blk t).view.emb (ix2 q e)) = _
  refine congrArg _ (funext fun a => Fin.ext ?_)
  match a with
  | ⟨0, _⟩ => show win0_1.index t (0 : Fin 2) * 1024 + 1 * q.val = (i 0).val; omega
  | ⟨1, _⟩ => show win0_1.index t (1 : Fin 2) * 2048 + 1 * e.val = (i 1).val; omega

/-- What grid point t writes back is its tile of the whole product. -/
theorem qkv_tile_written (c : Dev nD) (t : Fin cfg0.N) :
    (dat0 (F := Ideal) V c).flushed 2 t
      = ((cfg0.win 2).blk t).view.read (Elt Ideal) (qkvProduct (V c main_v0) (V c main_arg3)) := by
  show (cfg0.win 2).cut (grid0.coords t) ((dat0 (F := Ideal) V c).after 2 t) = _
  rw [after0_2]
  unfold out0_2
  rw [View.canon_unit_zero zero_offsets]
  simp only [View.ld_unit_zero (S := S256x2048) zero_offsets, View.ld_unit_zero (S := S1024x2048) zero_offsets]
  funext j
  obtain ⟨p, q, rfl⟩ : ∃ (p : Fin 256) (q : Fin 1024), j = ix2 p q := ⟨j 0, j 1, eq_ix2 j⟩
  show k0_pay1 (F := Ideal) (iblk0 V c 0 t) (iblk0 V c 1 t) (ix2 p q)
    = qkvProduct (V c main_v0) (V c main_arg3) (((cfg0.win 2).blk t).view.emb (ix2 p q))
  refine (qkv_tile_entry _ _ p q).trans (Finset.sum_congr rfl fun e _ => ?_)
  rw [qkv_lhs_block V c t p e (ix2 (n0 := 4096) ((((cfg0.win 2).blk t).view.emb (ix2 p q)) 0) e)
        (by show win0_2.index t (0 : Fin 2) * 256 + 1 * p.val = _; omega) rfl,
      qkv_rhs_block V c t q e (ix2 (n0 := 3072) ((((cfg0.win 2).blk t).view.emb (ix2 p q)) 1) e)
        (by show win0_2.index t (1 : Fin 2) * 1024 + 1 * q.val = _; omega) rfl]

/-- An index of the array lies in point t's tile iff each coordinate lies in the tile's range on its axis. -/
theorem qkv_mem_tile (t : Fin cfg0.N) (i : S4096x3072.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v1).slice (win0_2.rect t)).set ↔ _
  rw [View.set_slice_whole, Rect.mem_set_unit]
  exact Iff.rfl

/-- The tiles cover the array: entry (r, s) lies in the tile of row tile r / 256 and column tile s / 1024. -/
theorem qkv_tiles_cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := qkv_tile_onto ⟨(i 0).val / 256, by omega⟩ ⟨(i 1).val / 1024, by omega⟩
  have q0 : win0_2.index t (0 : Fin 2) = (i 0).val / 256 := congrFun ht 0
  have q1 : win0_2.index t (1 : Fin 2) = (i 1).val / 1024 := congrFun ht 1
  refine ⟨t, flush0_2 t, ?_⟩
  rw [qkv_mem_tile]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- After all write-backs the output array is the whole product. -/
theorem qkv_arr (c : Dev nD) :
    (dat0 (F := Ideal) V c).arrAt 2 cfg0.N = qkvProduct (V c main_v0) (V c main_arg3) :=
  (dat0 (F := Ideal) V c).arrAt_eq_of_cover 2 _ (fun t _ => qkv_tile_written V c t) qkv_tiles_cover

/-- Entry by entry: row p of the left factor against row q of the right factor, the products and the sum taken in the
    extended reals. -/
theorem qkv_arr_apply (c : Dev nD) (p : Fin 4096) (q : Fin 3072) :
    ((dat0 (F := Ideal) V c).arrAt 2 cfg0.N : S4096x3072.Idx → EReal) (ix2 p q)
      = ∑ e : Fin 2048, (HMul.hMul : EReal → EReal → EReal) (V c main_v0 (ix2 p e)) (V c main_arg3 (ix2 q e)) :=
  congrFun (qkv_arr V c) (ix2 p q)

/-! ## The second product: [4096, 2048] against [2048, 2048], into [4096, 2048]

The same tiling with 16 row tiles and 2 column tiles; the left factor arrives already in the narrow format, so only
the right factor's block changes format on the way in, and the tile is stored as computed. -/

/-- Entry (p, q) of the tile the second product's body stores. -/
theorem out_tile_entry (x0 : Vec Ideal S256x2048 .bf16) (x1 : Vec Ideal S1024x2048 .f32) (p : Fin 256) (q : Fin 1024) :
    k2_pay1 (F := Ideal) x0 x1 (ix2 p q) = ∑ e : Fin 2048, x0 (ix2 p e) * x1 (ix2 q e) := by
  unfold k2_pay1
  simp only [shapeCast_self]
  exact Cert.LibMatmulNT.matmul_zero_apply dot_S256x2048_S1024x2048_S256x1024_1_1_0_0_n_n.wf none _ _ p q

/-- The whole product: entry (r, s) is row r of the left factor against row s of the right factor. -/
abbrev outProduct (A : S4096x2048.Idx → EReal) (B : S2048x2048.Idx → EReal) : S4096x2048.Idx → EReal :=
  fun i => ∑ e : Fin 2048, A (ix2 (n0 := 4096) (i 0) e) * B (ix2 (n0 := 2048) (i 1) e)

/-- The tiles' positions, decided over the 32 grid points: the left factor's row block is the output's row tile and
    the right factor's row block is the output's column tile, both blocks spanning all the contracted columns; there
    are 16 row tiles and 2 column tiles. -/
theorem out_tile_positions : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 15 ∧ win2_2.index t (1 : Fin 2) ≤ 1 :=
  (by decide +kernel : ∀ t : Fin grid2.N, _)

/-- Every (row tile, column tile) pair is some grid point's. -/
theorem out_tile_onto : ∀ (r : Fin 16) (s : Fin 2), ∃ t : Fin cfg2.N, win2_2.index t = ![r.val, s.val] :=
  (by decide +kernel : ∀ (r : Fin 16) (s : Fin 2), ∃ t : Fin grid2.N, win2_2.index t = ![r.val, s.val])

/-- Row p, column e of the left factor's block at point t is the factor's entry at row (row tile) * 256 + p. -/
theorem out_lhs_block (c : Dev nD) (t : Fin cfg2.N) (p : Fin 256) (e : Fin 2048) (i : S4096x2048.Idx)
    (h0 : (i 0).val = win2_2.index t (0 : Fin 2) * 256 + p.val) (h1 : (i 1).val = e.val) :
    (iblk2 V c 0 t : Vec Ideal S256x2048 .bf16) (ix2 p e) = (V c main_v67 : S4096x2048.Idx → EReal) i := by
  obtain ⟨e0, e1, -, -, -, -⟩ := out_tile_positions t
  show (V c main_v67 : S4096x2048.Idx → EReal) (((cfg2.win 0).blk t).view.emb (ix2 p e)) = _
  refine congrArg _ (funext fun a => Fin.ext ?_)
  match a with
  | ⟨0, _⟩ => show win2_0.index t (0 : Fin 2) * 256 + 1 * p.val = (i 0).val; omega
  | ⟨1, _⟩ => show win2_0.index t (1 : Fin 2) * 2048 + 1 * e.val = (i 1).val; omega

/-- Row q, column e of the right factor's block at point t is the factor's entry at row (column tile) * 1024 + q. -/
theorem out_rhs_block (c : Dev nD) (t : Fin cfg2.N) (q : Fin 1024) (e : Fin 2048) (i : S2048x2048.Idx)
    (h0 : (i 0).val = win2_2.index t (1 : Fin 2) * 1024 + q.val) (h1 : (i 1).val = e.val) :
    (iblk2 V c 1 t : Vec Ideal S1024x2048 .f32) (ix2 q e) = (V c main_arg4 : S2048x2048.Idx → EReal) i := by
  obtain ⟨-, -, e2, e3, -, -⟩ := out_tile_positions t
  show (V c main_arg4 : S2048x2048.Idx → EReal) (((cfg2.win 1).blk t).view.emb (ix2 q e)) = _
  refine congrArg _ (funext fun a => Fin.ext ?_)
  match a with
  | ⟨0, _⟩ => show win2_1.index t (0 : Fin 2) * 1024 + 1 * q.val = (i 0).val; omega
  | ⟨1, _⟩ => show win2_1.index t (1 : Fin 2) * 2048 + 1 * e.val = (i 1).val; omega

/-- What grid point t writes back is its tile of the whole product. -/
theorem out_tile_written (c : Dev nD) (t : Fin cfg2.N) :
    (dat2 (F := Ideal) V c).flushed 2 t
      = ((cfg2.win 2).blk t).view.read (Elt Ideal) (outProduct (V c main_v67) (V c main_arg4)) := by
  show (cfg2.win 2).cut (grid2.coords t) ((dat2 (F := Ideal) V c).after 2 t) = _
  rw [after2_2]
  unfold out2_2
  rw [View.canon_unit_zero zero_offsets]
  simp only [View.ld_unit_zero (S := S256x2048) zero_offsets, View.ld_unit_zero (S := S1024x2048) zero_offsets]
  funext j
  obtain ⟨p, q, rfl⟩ : ∃ (p : Fin 256) (q : Fin 1024), j = ix2 p q := ⟨j 0, j 1, eq_ix2 j⟩
  show k2_pay1 (F := Ideal) (iblk2 V c 0 t) (iblk2 V c 1 t) (ix2 p q)
    = outProduct (V c main_v67) (V c main_arg4) (((cfg2.win 2).blk t).view.emb (ix2 p q))
  refine (out_tile_entry _ _ p q).trans (Finset.sum_congr rfl fun e _ => ?_)
  rw [out_lhs_block V c t p e (ix2 (n0 := 4096) ((((cfg2.win 2).blk t).view.emb (ix2 p q)) 0) e)
        (by show win2_2.index t (0 : Fin 2) * 256 + 1 * p.val = _; omega) rfl,
      out_rhs_block V c t q e (ix2 (n0 := 2048) ((((cfg2.win 2).blk t).view.emb (ix2 p q)) 1) e)
        (by show win2_2.index t (1 : Fin 2) * 1024 + 1 * q.val = _; omega) rfl]

/-- An index of the array lies in point t's tile iff each coordinate lies in the tile's range on its axis. -/
theorem out_mem_tile (t : Fin cfg2.N) (i : S4096x2048.Idx) :
    i ∈ ((cfg2.win 2).blk t).view.set ↔ ∀ a : Fin 2, win2_2.index t a * S256x1024.size a ≤ (i a).val
      ∧ (i a).val < win2_2.index t a * S256x1024.size a + S256x1024.size a := by
  show i ∈ ((View.whole main_v68).slice (win2_2.rect t)).set ↔ _
  rw [View.set_slice_whole, Rect.mem_set_unit]
  exact Iff.rfl

/-- The tiles cover the array: entry (r, s) lies in the tile of row tile r / 256 and column tile s / 1024. -/
theorem out_tiles_cover (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ := out_tile_onto ⟨(i 0).val / 256, by omega⟩ ⟨(i 1).val / 1024, by omega⟩
  have q0 : win2_2.index t (0 : Fin 2) = (i 0).val / 256 := congrFun ht 0
  have q1 : win2_2.index t (1 : Fin 2) = (i 1).val / 1024 := congrFun ht 1
  refine ⟨t, flush2_2 t, ?_⟩
  rw [out_mem_tile]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 1024 ≤ (i 1).val ∧ (i 1).val < win2_2.index t (1 : Fin 2) * 1024 + 1024; omega

/-- After all write-backs the output array is the whole product. -/
theorem out_arr (c : Dev nD) :
    (dat2 (F := Ideal) V c).arrAt 2 cfg2.N = outProduct (V c main_v67) (V c main_arg4) :=
  (dat2 (F := Ideal) V c).arrAt_eq_of_cover 2 _ (fun t _ => out_tile_written V c t) out_tiles_cover

/-- Entry by entry: row p of the left factor against row q of the right factor, the products and the sum taken in the
    extended reals. -/
theorem out_arr_apply (c : Dev nD) (p : Fin 4096) (q : Fin 2048) :
    ((dat2 (F := Ideal) V c).arrAt 2 cfg2.N : S4096x2048.Idx → EReal) (ix2 p q)
      = ∑ e : Fin 2048, (HMul.hMul : EReal → EReal → EReal) (V c main_v67 (ix2 p e)) (V c main_arg4 (ix2 q e)) :=
  congrFun (out_arr V c) (ix2 p q)

end Cert.KernelIdeal.ProjRegion

end
-- ==== Proof.HeadVec.lean ====
/-
  The attention kernel's body, head by head.

  The body treats the four query heads of a group one after the other, each against the group's one key block and one
  value block: scores `q kᵀ` scaled, the masked entries filled, the row maximum subtracted, exponentials, their row sums,
  the weighted values `p v` divided by the row sums. `head` is that chain on a `1024 × 64` query block; the four stores of
  the body are `head` of the four query slices, each viewed back as a `1 × 1 × 1024 × 64` slab.
-/
import proofs.«134167_j73263552135848_2_alg».proof.Proof.Gen.KernelIdeal.Skeleton

set_option synthInstance.maxSize 4096

noncomputable section

namespace Cert.KernelIdeal.HeadVec

open Cert.KernelIdeal Cert.KernelIdeal.Gen Idealize.ShloMosaic Idealize.SL.Sem

variable {F : FTy → Type} [FloatOps F] [Named F]

/-- One query head against the group's keys and values: `(exp (s - max s) v) / ∑ exp (s - max s)` with
    `s = select keep (q kᵀ · 2⁻³) fill`, as vector operations. -/
def head (q1 : FVec F S1024x64 .bf16) (k1 : FVec F S1024x64 .bf16) (v1 : FVec F S1024x64 .bf16) (keep : IVec S1024x1024 1) :
    FVec F S1024x64 .bf16 :=
  have zero_s : FVec F S1024x1024 .f32 := constant S1024x1024 .f32 0x00000000#32
  have dots : FVec F S1024x1024 .f32 := matmul dot_S1024x64_S1024x64_S1024x1024_1_1_0_0_n_n none q1 k1 zero_s
  have c_scale : F .f32 := Scalar.ofBits .f32 0x3E000000#32
  have scales : FVec F S1024x1024 .f32 := broadcast S1024x1024 c_scale
  have scaled : FVec F S1024x1024 .f32 := mulf dots scales
  have c_fill : F .f32 := Named.named κ "neg_big" 0xFF333332#32
  have fills : FVec F S1024x1024 .f32 := broadcast S1024x1024 c_fill
  have s : FVec F S1024x1024 .f32 := select keep scaled fills
  have mx : FVec F S1024 .f32 := multiReduction .maximumf [1] S1024 s 0xFF800000#32 reduces_S1024x1024_S1024 (.inl rfl) rfl
  have mxc : FVec F S1024x1 .f32 := shapeCast S1024x1 mx shapeCasts_S1024_S1024x1
  have mxb : FVec F S1024x1024 .f32 := broadcastTo S1024x1024 mxc broadcasts_S1024x1_S1024x1024
  have sh : FVec F S1024x1024 .f32 := subf s mxb
  have p : FVec F S1024x1024 .f32 := exp sh
  have l : FVec F S1024 .f32 := multiReduction .add [1] S1024 p 0x00000000#32 reduces_S1024x1024_S1024 (.inl rfl) rfl
  have lc : FVec F S1024x1 .f32 := shapeCast S1024x1 l shapeCasts_S1024_S1024x1
  have pb : FVec F S1024x1024 .bf16 := truncf .bf16 p bitsLt_bf16_f32
  have zero_o : FVec F S1024x64 .f32 := constant S1024x64 .f32 0x00000000#32
  have pv : FVec F S1024x64 .f32 := matmul dot_S1024x1024_S1024x64_S1024x64_1_0_0_1_n_n none pb v1 zero_o
  have lb : FVec F S1024x64 .f32 := broadcastTo S1024x64 lc broadcasts_S1024x1_S1024x64
  have o : FVec F S1024x64 .f32 := divf pv lb
  truncf .bf16 o bitsLt_bf16_f32

/-- A query slab as a block, through `head`, back as a slab. -/
def headSlab (k1 : FVec F S1024x64 .bf16) (v1 : FVec F S1024x64 .bf16) (keep : IVec S1024x1024 1)
    (qs : Vec F S1x1x1024x64 .bf16) : FVec F S1x1x1024x64 .bf16 :=
  shapeCast S1x1x1024x64 (head (shapeCast S1024x64 qs shapeCasts_S1x1x1024x64_S1024x64) k1 v1 keep) shapeCasts_S1024x64_S1x1x1024x64

/-- The first store is `head` of query slab 0. -/
theorem pay6_eq (v0 v2 : Vec F S1x1x1024x64 .bf16) (v4 : Vec F S1x1x1024x1024 .i32) (v7 : Vec F S1x1x1024x64 .bf16) :
    k1_pay6 v0 v2 v4 v7 = headSlab (k1_pay3 v0) (k1_pay4 v2) (k1_pay5 v4) v7 := rfl

/-- The second store is `head` of query slab 1. -/
theorem pay7_eq (v1 v3 : FVec F S1024x64 .bf16) (v6 : IVec S1024x1024 1) (v29 : Vec F S1x1x1024x64 .bf16) :
    k1_pay7 v1 v3 v6 v29 = headSlab v1 v3 v6 v29 := rfl

/-- The third store is `head` of query slab 2 (the body computes its weights and their sums in an earlier part). -/
theorem pay1_eq (v1 v3 : FVec F S1024x64 .bf16) (v6 : IVec S1024x1024 1) (v51 : Vec F S1x1x1024x64 .bf16) :
    k1_pay1 v3 (k1_pay9 v1 v6 v51) (k1_pay10 v1 v6 v51) = headSlab v1 v3 v6 v51 := rfl

/-- The fourth store is `head` of query slab 3. -/
theorem pay2_eq (v1 v3 : FVec F S1024x64 .bf16) (v6 : IVec S1024x1024 1) (v73 : Vec F S1x1x1024x64 .bf16) :
    k1_pay2 v1 v3 v6 v73 = headSlab v1 v3 v6 v73 := rfl

end Cert.KernelIdeal.HeadVec

end
-- ==== Proof.LibRowSoftmax.lean ====
/-
  One attention row over the extended reals.

  A row of scores `s k` (each a real number or `⊥`, the score of a masked key), shifted by a value `m` that is an upper
  bound of the row and is attained in it, gives the weights `p k = exp (s k - m)`. When some score is a real number, `m` is
  a real number, every weight is a nonnegative real number, the weight of a key that attains `m` is `1`, and so the
  normaliser `l = ∑ k, p k` is a positive real number. Dividing the weighted sum `∑ k, p k * v k` of real values by `l`
  is then the same as summing the values against the normalised weights `p k / l`: both are the real number
  `(∑ k, P k * V k) / L`. (With no real score the normaliser is `0` and the two sides are different junk values: the
  hypothesis is needed.)
-/
import Idealize.ShloMosaic.PureOps.Ideal

noncomputable section

namespace Cert.RowSoftmax

open Idealize.ShloMosaic

/-- A finite sum of embedded real numbers is the embedded sum. -/
theorem coe_finset_sum {ι : Type} (t : Finset ι) (f : ι → ℝ) :
    (∑ k ∈ t, ((f k : ℝ) : EReal)) = ((∑ k ∈ t, f k : ℝ) : EReal) := by
  classical
  refine Finset.induction_on t (by simp) ?_
  intro a t ha ih
  rw [Finset.sum_insert ha, Finset.sum_insert ha, ih, EReal.coe_add]

/-- The weight of a score that is not `⊤`, shifted by a real number: a nonnegative real number, `1` when the score is
    the shift itself. -/
theorem weight_real (x : EReal) (hx : x ≠ ⊤) (M : ℝ) :
    ∃ r : ℝ, 0 ≤ r ∧ Ideal.exp (x - (M : EReal)) = (r : EReal) ∧ (x = (M : EReal) → r = 1) := by
  induction x using EReal.rec with
  | bot =>
    refine ⟨0, le_refl _, ?_, fun h => absurd h (EReal.bot_ne_coe M)⟩
    rw [EReal.bot_sub]; rfl
  | coe r =>
    refine ⟨Real.exp (r - M), (Real.exp_pos _).le, ?_, fun h => ?_⟩
    · rw [← EReal.coe_sub]; rfl
    · have : r = M := EReal.coe_eq_coe_iff.mp h
      rw [this, sub_self, Real.exp_zero]
  | top => exact absurd rfl hx

variable {n : ℕ}

/-- Normalising after the weighted sum, or before it: the same real number, when some score of the row is real. -/
theorem div_after_eq_div_before (s v : Fin n → EReal) (m : EReal)
    (hle : ∀ k, s k ≤ m) (hatt : ∃ k, s k = m) (hs : ∀ k, s k ≠ ⊤) (hreal : ∃ k, s k ≠ ⊥)
    (hv : ∀ k, ∃ r : ℝ, v k = (r : EReal)) :
    Ideal.div (∑ k, Ideal.exp (s k - m) * v k) (∑ k, Ideal.exp (s k - m))
      = ∑ k, Ideal.div (Ideal.exp (s k - m)) (∑ j, Ideal.exp (s j - m)) * v k := by
  obtain ⟨ka, hka⟩ := hatt
  obtain ⟨k0, hk0⟩ := hreal
  have hmtop : m ≠ ⊤ := hka ▸ hs ka
  have hmbot : m ≠ ⊥ := fun h => hk0 (le_bot_iff.mp (h ▸ hle k0))
  lift m to ℝ using ⟨hmtop, hmbot⟩
  choose V hV using hv
  choose P hP0 hPe hP1 using fun k => weight_real (s k) (hs k) m
  have hL : (0 : ℝ) < ∑ k, P k := by
    have h1 : P ka = 1 := hP1 ka hka
    have : P ka ≤ ∑ k, P k := Finset.single_le_sum (fun k _ => hP0 k) (Finset.mem_univ ka)
    linarith
  have hL0 : (∑ k, P k) ≠ 0 := ne_of_gt hL
  simp only [hPe, hV]
  rw [coe_finset_sum]
  simp only [Ideal.div_coe hL0, ← EReal.coe_mul]
  rw [coe_finset_sum, coe_finset_sum, ← EReal.coe_mul, EReal.coe_eq_coe_iff, Finset.sum_mul]
  exact Finset.sum_congr rfl fun k _ => by ring

end Cert.RowSoftmax

end
-- ==== Proof.HeadSpec.lean ====
/-
  One attention head over the extended reals, and the two orders of normalising it.

  For query rows `Q`, key rows `K` and value rows `V` (1024 rows of 64 entries each) and the keep-bits of the mask, the
  score of key `k` for query `q` is the scaled inner product `(∑ e, Q q e * K k e) * 2⁻³` where the bit is set and `⊥`
  where it is not; the weights are `exp (score - row maximum)`. The kernel divides the weighted sum of the values by the
  sum of the weights (`after`); the reference divides each weight first (`before`). With real `Q`, `K`, `V` and at least
  one kept key in the row the two agree (`after_eq_before`): the row maximum is then a real score of the row, the weights are
  nonnegative real numbers one of which is `1`, and the rest is `(∑ P V) / L = ∑ (P / L) V` on the real numbers.
-/
import Idealize.ShloMosaic.PureOps.Ideal
import Idealize.ShloMosaic.PureOps.Ideal.Laws
import Mathlib.Data.Finset.Fold
import proofs.«134167_j73263552135848_2_alg».proof.Proof.LibRowSoftmax

noncomputable section

namespace Cert.Head

open Idealize.ShloMosaic

/-- The softmax scale `1/√64`, as the program's own literal. -/
abbrev scale : EReal := Ideal.ofBits .f32 0x3E000000#32

/-- The key/value head that query head `h` of 32 shares with its group of four: `h / 4` of 8. -/
def kvOf (h : Fin 32) : Fin 8 := ⟨h.val / 4, by have := h.isLt; omega⟩

/-- The score of key `k` for query `q`: the scaled inner product of their rows, `⊥` where the mask drops the pair. -/
def score (Q K : Fin 1024 → Fin 64 → EReal) (keep : Fin 1024 → Fin 1024 → BitVec 1) (q k : Fin 1024) : EReal :=
  Scalar.select (keep q k) ((∑ e : Fin 64, Q q e * K k e) * scale) ⊥

/-- The largest score of a row (`⊥` for a row with none). -/
def rowMax (s : Fin 1024 → EReal) : EReal := (Finset.univ : Finset (Fin 1024)).fold max ⊥ s

/-- The unnormalised softmax weight of key `k` for query `q`. -/
def weight (Q K : Fin 1024 → Fin 64 → EReal) (keep : Fin 1024 → Fin 1024 → BitVec 1) (q k : Fin 1024) : EReal :=
  Ideal.exp (score Q K keep q k - rowMax (score Q K keep q))

/-- The head's output, normalised AFTER the weighted sum of the values. -/
def after (Q K V : Fin 1024 → Fin 64 → EReal) (keep : Fin 1024 → Fin 1024 → BitVec 1) (q : Fin 1024) (d : Fin 64) : EReal :=
  Ideal.div (∑ k, weight Q K keep q k * V k d) (∑ k, weight Q K keep q k)

/-- The head's output, each weight normalised BEFORE the weighted sum of the values. -/
def before (Q K V : Fin 1024 → Fin 64 → EReal) (keep : Fin 1024 → Fin 1024 → BitVec 1) (q : Fin 1024) (d : Fin 64) : EReal :=
  ∑ k, Ideal.div (weight Q K keep q k) (∑ j, weight Q K keep q j) * V k d

/-- The scale is the real number `1/8`. -/
theorem scale_real : ∃ r : ℝ, scale = (r : EReal) := by
  refine ⟨1 / 8, ?_⟩
  simp [scale, Ideal.ofBits, Ideal.ieee]
  rw [← EReal.coe_mul, EReal.coe_eq_coe_iff]
  norm_num

/-- An inner product of real rows is a real number. -/
theorem dot_real (a b : Fin 64 → EReal) (ha : ∀ e, ∃ r : ℝ, a e = (r : EReal)) (hb : ∀ e, ∃ r : ℝ, b e = (r : EReal)) :
    ∃ r : ℝ, (∑ e : Fin 64, a e * b e) = (r : EReal) := by
  choose A hA using ha
  choose B hB using hb
  refine ⟨∑ e, A e * B e, ?_⟩
  simp only [hA, hB, ← EReal.coe_mul]
  exact RowSoftmax.coe_finset_sum _ _

variable (Q K V : Fin 1024 → Fin 64 → EReal) (keep : Fin 1024 → Fin 1024 → BitVec 1)

/-- A score is never `⊤`, and is real where the pair is kept, when the rows are real. -/
theorem score_cases (hQ : ∀ q e, ∃ r : ℝ, Q q e = (r : EReal)) (hK : ∀ k e, ∃ r : ℝ, K k e = (r : EReal)) (q k : Fin 1024) :
    score Q K keep q k ≠ ⊤ ∧ (keep q k = 1#1 → score Q K keep q k ≠ ⊥) := by
  obtain ⟨c, hc⟩ := scale_real
  obtain ⟨r, hr⟩ := dot_real (Q q) (K k) (hQ q) (hK k)
  unfold score Scalar.select
  rw [hr, hc, ← EReal.coe_mul]
  constructor
  · split
    · exact EReal.coe_ne_top _
    · exact bot_ne_top
  · intro h
    rw [if_pos (show keep q k = 1 from h)]
    exact EReal.coe_ne_bot _

/-- With real rows and a kept key in the row, normalising after or before the weighted sum gives the same output. -/
theorem after_eq_before (hQ : ∀ q e, ∃ r : ℝ, Q q e = (r : EReal)) (hK : ∀ k e, ∃ r : ℝ, K k e = (r : EReal))
    (hV : ∀ k d, ∃ r : ℝ, V k d = (r : EReal)) (q : Fin 1024) (hrow : ∃ k, keep q k = 1#1) (d : Fin 64) :
    after Q K V keep q d = before Q K V keep q d := by
  obtain ⟨k0, hk0⟩ := hrow
  have hle : ∀ k, score Q K keep q k ≤ rowMax (score Q K keep q) := fun k =>
    (Finset.le_fold_max _).mpr (Or.inr ⟨k, Finset.mem_univ k, le_refl _⟩)
  have hreal : score Q K keep q k0 ≠ ⊥ := (score_cases Q K keep hQ hK q k0).2 hk0
  have hatt : ∃ k, score Q K keep q k = rowMax (score Q K keep q) := by
    rcases (Finset.le_fold_max _).mp (le_refl (rowMax (score Q K keep q))) with h | ⟨k, -, hk⟩
    · exact absurd (le_bot_iff.mp ((hle k0).trans h)) hreal
    · exact ⟨k, le_antisymm (hle k) hk⟩
  exact RowSoftmax.div_after_eq_div_before (score Q K keep q) (fun k => V k d) (rowMax (score Q K keep q)) hle hatt
    (fun k => (score_cases Q K keep hQ hK q k).1) ⟨k0, hreal⟩ (fun k => hV k d)

end Cert.Head

end
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.AttnRegion.lean ====
/-
  The attention region, from blocks to the whole array.

  The region runs one grid point per pair of a batch `b` (of 4) and a key/value head `kv` (of 8). At that point the
  query window holds the `[1, 4, 1024, 64]` block of the query array `[4, 32, 1024, 64]` at block index `(b, kv, 0, 0)` —
  query heads `4·kv … 4·kv + 3` of batch `b` —, the key and value windows the `[1, 1, 1024, 64]` blocks of the key and
  value arrays `[4, 8, 1024, 64]` at `(b, kv, 0, 0)`, the mask window the whole `[1, 1, 1024, 1024]` mask, and the output
  window the `[1, 4, 1024, 64]` block of the output array at `(b, kv, 0, 0)`. The body stores, into slab `s` of the output
  block (`s = 0 … 3`), `HeadVec.head` of query slab `s` against the key block, the value block and the keep-bits of the mask.

  Read here: the output block after the body is ONE function of its index (`blockFn`: entry `(0, s, p, e)` is `head` of
  query slab `s` at `(p, e)`), since each of the four stores writes the slab of that function under its rectangle and the
  four rectangles cover the block; the blocks the windows hold at a point are slices of the arrays, an element of a block
  sitting at block index × block size + its coordinate; so what a point writes back is its block of ONE function of the
  output array's index (`arrFn`: entry `(b, h, q, d)` is `head` of query head `h` of batch `b` against key/value head
  `h / 4`, at `(q, d)`); and every index `(b, h, q, d)` lies in the block of the point `(b, h / 4)`, inside which head `h`
  is slab `h % 4`. Hence the array after all write-backs is `arrFn` (`attn_arr_apply`). `HeadVec.head` is never opened.
-/
import proofs.«134167_j73263552135848_2_alg».proof.Proof.Gen.KernelIdeal.Frame
import proofs.«134167_j73263552135848_2_alg».proof.Proof.Gen.KernelIdeal.Points
import proofs.«134167_j73263552135848_2_alg».proof.Proof.HeadVec
import proofs.«134167_j73263552135848_2_alg».proof.Proof.HeadSpec
import proofs.«134167_j73263552135848_2_alg».proof.Proof.LibUnitAxes
import Idealize.ShloMosaic.Lib.Pipeline.Value
import Idealize.ShloMosaic.Lib.ValueIdx

set_option synthInstance.maxSize 4096

noncomputable section

namespace Cert.KernelIdeal.AttnRegion

open Cert.KernelIdeal Cert.KernelIdeal.Gen Idealize.ShloMosaic Idealize.ShloMosaic.ValueIdx Idealize.ShloMosaic.TcCoe Idealize.SL.Sem
open Idealize.ShloMosaic.Pipeline (Dat)

/-- Rows and lanes of head `h` of batch `b` of a [4,32,1024,64] array, as a 1024×64 block. -/
def slab32 (A : S4x32x1024x64.Idx → EReal) (b : Fin 4) (h : Fin 32) : FVec Ideal S1024x64 .bf16 :=
  fun i => A (ix4 b h ⟨(i 0).val, (i 0).isLt⟩ ⟨(i 1).val, (i 1).isLt⟩)
/-- The same of a [4,8,1024,64] array. -/
def slab8 (A : S4x8x1024x64.Idx → EReal) (b : Fin 4) (kv : Fin 8) : FVec Ideal S1024x64 .bf16 :=
  fun i => A (ix4 b kv ⟨(i 0).val, (i 0).isLt⟩ ⟨(i 1).val, (i 1).isLt⟩)
/-- The keep-bits of the i32 mask: nonzero entries. -/
def keepOf (M : S1x1x1024x1024.Idx → BitVec 32) : IVec S1024x1024 1 :=
  fun i => IntOp.cmpi .ne (M (ix4 (0 : Fin 1) (0 : Fin 1) ⟨(i 0).val, (i 0).isLt⟩ ⟨(i 1).val, (i 1).isLt⟩)) 0#32

/-! ## One query slab of a block through `head` -/

/-- Query slab `s` of a [1,4,1024,64] block, as a 1024×64 block. -/
def slabQ (x0 : S1x4x1024x64.Idx → EReal) (s : Fin 4) : FVec Ideal S1024x64 .bf16 :=
  fun i => x0 (ix4 (0 : Fin 1) s ⟨(i 0).val, (i 0).isLt⟩ ⟨(i 1).val, (i 1).isLt⟩)

/-- The output block as ONE function of its index: entry `(0, s, p, e)` is `head` of query slab `s` at `(p, e)`. -/
def blockFn (x0 : S1x4x1024x64.Idx → EReal) (K Vv : FVec Ideal S1024x64 .bf16) (keep : IVec S1024x1024 1) :
    S1x4x1024x64.Idx → EReal :=
  fun y => HeadVec.head (F := Ideal) (slabQ x0 ⟨(y 1).val, (y 1).isLt⟩) K Vv keep
    (ix2 (⟨(y 2).val, (y 2).isLt⟩ : Fin 1024) (⟨(y 3).val, (y 3).isLt⟩ : Fin 64))

/-- `blockFn` at an index whose slab, row and lane coordinates are `s`, `p`, `e`. -/
theorem blockFn_apply (x0 : S1x4x1024x64.Idx → EReal) (K Vv : FVec Ideal S1024x64 .bf16) (keep : IVec S1024x1024 1)
    (y : S1x4x1024x64.Idx) (s : Fin 4) (p : Fin 1024) (e : Fin 64)
    (h1 : (y 1).val = s.val) (h2 : (y 2).val = p.val) (h3 : (y 3).val = e.val) :
    blockFn x0 K Vv keep y = HeadVec.head (F := Ideal) (slabQ x0 s) K Vv keep (ix2 p e) := by
  have e1 : (⟨(y 1).val, (y 1).isLt⟩ : Fin 4) = s := Fin.ext h1
  have e2 : (⟨(y 2).val, (y 2).isLt⟩ : Fin 1024) = p := Fin.ext h2
  have e3 : (⟨(y 3).val, (y 3).isLt⟩ : Fin 64) = e := Fin.ext h3
  unfold blockFn
  rw [e1, e2, e3]

/-- A matrix `[a, b]` viewed as the block `[1, 1, a, b]` reads, at `(0, 0, p, c)`, the matrix's entry `(p, c)`. -/
theorem shapeCast_ab_11ab_apply {α : Type} (x : S1024x64.Idx → α)
    (h : S1024x64.ShapeCasts S1x1x1024x64) (j : S1x1x1024x64.Idx) :
    shapeCast S1x1x1024x64 x h j = x (ix2 (⟨(j 2).val, (j 2).isLt⟩ : Fin 1024) (⟨(j 3).val, (j 3).isLt⟩ : Fin 64)) := by
  refine shapeCast_apply x h j _ ?_
  rw [Shape.rowMajor_val_four, Shape.rowMajor_val_two]
  have h0 : (j 0).val < 1 := (j 0).isLt
  have h1 : (j 1).val < 1 := (j 1).isLt
  show (j 2).val * 64 + (j 3).val = (((j 0).val * 1 + (j 1).val) * 1024 + (j 2).val) * 64 + (j 3).val
  obtain e0 : (j 0).val = 0 := by omega
  obtain e1 : (j 1).val = 0 := by omega
  rw [e0, e1]; omega

/-- The zero offsets of a rank-4 whole-buffer access. -/
theorem zero_offsets : (![0, 0, 0, 0] : Fin 4 → Nat) = fun _ => 0 := funext fun a => by fin_cases a <;> rfl

/-- A query slab loaded through the unit rectangle at offset `(0, s, 0, 0)` and viewed as a matrix is slab `s`. -/
theorem loaded_slab_eq_slabQ (x0 : S1x4x1024x64.Idx → EReal) (off : Fin 4 → Nat)
    (inb : ∀ a, off a + S1x1x1024x64.size a ≤ S1x4x1024x64.size a) (s : Fin 4)
    (h0 : off 0 = 0) (h1 : off 1 = s.val) (h2 : off 2 = 0) (h3 : off 3 = 0)
    (hc : S1x1x1024x64.ShapeCasts S1024x64) :
    shapeCast S1024x64 (View.ld (Val := Elt Ideal) (e' := .bf16) x0 (Rect.unit (s := S1x4x1024x64) off S1x1x1024x64.size inb)) hc
      = slabQ x0 s := by
  funext i
  obtain ⟨p, e, rfl⟩ : ∃ (p : Fin 1024) (e : Fin 64), i = ix2 p e := ⟨i 0, i 1, eq_ix2 i⟩
  refine (Cert.Layout.shapeCast_11ab_ab_apply (a := 1024) (b := 64) _ hc p e).trans ?_
  show x0 _ = x0 _
  refine congrArg x0 (funext fun a => Fin.ext ?_)
  match a with
  | ⟨0, _⟩ => show off 0 + 1 * 0 = 0; omega
  | ⟨1, _⟩ => show off 1 + 1 * 0 = s.val; omega
  | ⟨2, _⟩ => show off 2 + 1 * p.val = p.val; omega
  | ⟨3, _⟩ => show off 3 + 1 * e.val = e.val; omega

/-- The store of `head` of query slab `s` through the unit rectangle at offset `(0, s, 0, 0)` is a piece of `blockFn`. -/
theorem store_eq_blockFn_slab (x0 : S1x4x1024x64.Idx → EReal) (K Vv : FVec Ideal S1024x64 .bf16) (keep : IVec S1024x1024 1)
    (off : Fin 4 → Nat) (inb : ∀ a, off a + S1x1x1024x64.size a ≤ S1x4x1024x64.size a) (s : Fin 4)
    (h0 : off 0 = 0) (h1 : off 1 = s.val) (h2 : off 2 = 0) (h3 : off 3 = 0)
    (x : (Rect.unit (s := S1x4x1024x64) off S1x1x1024x64.size inb).shape.Idx) :
    HeadVec.headSlab (F := Ideal) K Vv keep (View.ld (Val := Elt Ideal) (e' := .bf16) x0 (Rect.unit (s := S1x4x1024x64) off S1x1x1024x64.size inb)) x
      = blockFn x0 K Vv keep ((Rect.unit (s := S1x4x1024x64) off S1x1x1024x64.size inb).emb x) := by
  unfold HeadVec.headSlab
  refine (shapeCast_ab_11ab_apply _ _ x).trans ?_
  rw [loaded_slab_eq_slabQ x0 off inb s h0 h1 h2 h3]
  have hx1 : (x 1).val < 1 := (x 1).isLt
  refine (blockFn_apply x0 K Vv keep _ s ⟨(x 2).val, (x 2).isLt⟩ ⟨(x 3).val, (x 3).isLt⟩ ?_ ?_ ?_).symm
  · show off 1 + 1 * (x 1).val = s.val; omega
  · show off 2 + 1 * (x 2).val = (x 2).val; omega
  · show off 3 + 1 * (x 3).val = (x 3).val; omega

/-- What the body leaves in the output buffer is `blockFn` of the query block, of the key and value blocks as matrices
    and of the keep-bits: each of the four stores writes the slab of `blockFn` under its rectangle, and the four
    rectangles cover the buffer. -/
theorem body_leaves_blockFn (x0 : Vec Ideal S1x4x1024x64 .bf16) (x1 x2 : Vec Ideal S1x1x1024x64 .bf16) (x3 : Vec Ideal S1x1x1024x1024 .i32)
    (y : S1x4x1024x64.Idx) :
    out1_4 (F := Ideal) x0 x1 x2 x3 y = blockFn x0 (k1_pay3 x1) (k1_pay4 x2) (k1_pay5 x3) y := by
  unfold out1_4
  rw [HeadVec.pay2_eq, HeadVec.pay1_eq, HeadVec.pay7_eq, HeadVec.pay6_eq]
  simp only [View.ld_unit_zero (S := S1x1x1024x64) zero_offsets, View.ld_unit_zero (S := S1x1x1024x1024) zero_offsets]
  refine View.canon_apply_of_pieces (Val := Elt Ideal) (S := S1x4x1024x64) (e := .bf16) (blockFn x0 (k1_pay3 x1) (k1_pay4 x2) (k1_pay5 x3)) _ ?_ y (cover1_4 _ _ _ _ y)
  intro p hp
  simp only [List.mem_cons, List.mem_singleton, List.not_mem_nil, or_false] at hp
  rcases hp with rfl | rfl | rfl | rfl
  · intro x
    exact store_eq_blockFn_slab x0 (k1_pay3 x1) (k1_pay4 x2) (k1_pay5 x3) ![0, 3, 0, 0] inb_S1x4x1024x64_S1x1x1024x64_0_3_0_0 (3 : Fin 4) rfl rfl rfl rfl x
  · intro x
    exact store_eq_blockFn_slab x0 (k1_pay3 x1) (k1_pay4 x2) (k1_pay5 x3) ![0, 2, 0, 0] inb_S1x4x1024x64_S1x1x1024x64_0_2_0_0 (2 : Fin 4) rfl rfl rfl rfl x
  · intro x
    exact store_eq_blockFn_slab x0 (k1_pay3 x1) (k1_pay4 x2) (k1_pay5 x3) ![0, 1, 0, 0] inb_S1x4x1024x64_S1x1x1024x64_0_1_0_0 (1 : Fin 4) rfl rfl rfl rfl x
  · intro x
    exact store_eq_blockFn_slab x0 (k1_pay3 x1) (k1_pay4 x2) (k1_pay5 x3) ![0, 0, 0, 0] inb_S1x4x1024x64_S1x1x1024x64_0_0_0_0 (0 : Fin 4) rfl rfl rfl rfl x

/-! ## The index maps of the five windows, decided over the grid -/

/-- The query, key, value and output windows move together: block `(b, kv, 0, 0)` at the point of batch `b` and
    key/value head `kv`; the mask window stays at block `(0, 0, 0, 0)`. -/
theorem windows_move_together : ∀ t : Fin cfg1.N,
    win1_0.index t (0 : Fin 4) = win1_4.index t (0 : Fin 4) ∧ win1_0.index t (1 : Fin 4) = win1_4.index t (1 : Fin 4)
    ∧ win1_0.index t (2 : Fin 4) = 0 ∧ win1_0.index t (3 : Fin 4) = 0
    ∧ win1_1.index t (0 : Fin 4) = win1_4.index t (0 : Fin 4) ∧ win1_1.index t (1 : Fin 4) = win1_4.index t (1 : Fin 4)
    ∧ win1_1.index t (2 : Fin 4) = 0 ∧ win1_1.index t (3 : Fin 4) = 0
    ∧ win1_2.index t (0 : Fin 4) = win1_4.index t (0 : Fin 4) ∧ win1_2.index t (1 : Fin 4) = win1_4.index t (1 : Fin 4)
    ∧ win1_2.index t (2 : Fin 4) = 0 ∧ win1_2.index t (3 : Fin 4) = 0
    ∧ win1_3.index t (0 : Fin 4) = 0 ∧ win1_3.index t (1 : Fin 4) = 0
    ∧ win1_3.index t (2 : Fin 4) = 0 ∧ win1_3.index t (3 : Fin 4) = 0
    ∧ win1_4.index t (0 : Fin 4) < 4 ∧ win1_4.index t (1 : Fin 4) < 8
    ∧ win1_4.index t (2 : Fin 4) = 0 ∧ win1_4.index t (3 : Fin 4) = 0 :=
  (by decide +kernel : ∀ t : Fin grid1.N, _)

/-- Every pair of a batch and a key/value head is SOME point's output block. -/
theorem every_group_is_a_point : ∀ (q0 : Fin 4) (q1 : Fin 8), ∃ t : Fin cfg1.N, win1_4.index t = ![q0.val, q1.val, 0, 0] :=
  (by decide +kernel : ∀ (q0 : Fin 4) (q1 : Fin 8), ∃ t : Fin grid1.N, win1_4.index t = ![q0.val, q1.val, 0, 0])

variable (V : (c : Dev nD) → (b : Ref sig .tc) → Buf (Elt Ideal) ((c : Thread nD τ).loc b))

/-! ## The input blocks at a point, as parts of the arrays -/

/-- An entry of the query block at point `t` is the array's entry at block index × block size + its coordinate. -/
theorem iblk_q_apply (c : Dev nD) (t : Fin cfg1.N) (x : S1x4x1024x64.Idx) (k : S4x32x1024x64.Idx)
    (h0 : (k 0).val = win1_0.index t (0 : Fin 4) * 1 + (x 0).val) (h1 : (k 1).val = win1_0.index t (1 : Fin 4) * 4 + (x 1).val)
    (h2 : (k 2).val = win1_0.index t (2 : Fin 4) * 1024 + (x 2).val) (h3 : (k 3).val = win1_0.index t (3 : Fin 4) * 64 + (x 3).val) :
    (iblk1 (F := Ideal) V c 0 t : Vec Ideal S1x4x1024x64 .bf16) x = (V c main_v61 : S4x32x1024x64.Idx → EReal) k := by
  unfold iblk1
  rw [View.read_apply]
  show V c main_v61 _ = V c main_v61 _
  congr 1
  funext a
  apply Fin.ext
  match a with
  | ⟨0, _⟩ => show win1_0.index t (0 : Fin 4) * 1 + 1 * (x 0).val = (k 0).val; omega
  | ⟨1, _⟩ => show win1_0.index t (1 : Fin 4) * 4 + 1 * (x 1).val = (k 1).val; omega
  | ⟨2, _⟩ => show win1_0.index t (2 : Fin 4) * 1024 + 1 * (x 2).val = (k 2).val; omega
  | ⟨3, _⟩ => show win1_0.index t (3 : Fin 4) * 64 + 1 * (x 3).val = (k 3).val; omega

/-- The same of the key block. -/
theorem iblk_k_apply (c : Dev nD) (t : Fin cfg1.N) (x : S1x1x1024x64.Idx) (k : S4x8x1024x64.Idx)
    (h0 : (k 0).val = win1_1.index t (0 : Fin 4) * 1 + (x 0).val) (h1 : (k 1).val = win1_1.index t (1 : Fin 4) * 1 + (x 1).val)
    (h2 : (k 2).val = win1_1.index t (2 : Fin 4) * 1024 + (x 2).val) (h3 : (k 3).val = win1_1.index t (3 : Fin 4) * 64 + (x 3).val) :
    (iblk1 (F := Ideal) V c 1 t : Vec Ideal S1x1x1024x64 .bf16) x = (V c main_v62 : S4x8x1024x64.Idx → EReal) k := by
  unfold iblk1
  rw [View.read_apply]
  show V c main_v62 _ = V c main_v62 _
  congr 1
  funext a
  apply Fin.ext
  match a with
  | ⟨0, _⟩ => show win1_1.index t (0 : Fin 4) * 1 + 1 * (x 0).val = (k 0).val; omega
  | ⟨1, _⟩ => show win1_1.index t (1 : Fin 4) * 1 + 1 * (x 1).val = (k 1).val; omega
  | ⟨2, _⟩ => show win1_1.index t (2 : Fin 4) * 1024 + 1 * (x 2).val = (k 2).val; omega
  | ⟨3, _⟩ => show win1_1.index t (3 : Fin 4) * 64 + 1 * (x 3).val = (k 3).val; omega

/-- The same of the value block. -/
theorem iblk_v_apply (c : Dev nD) (t : Fin cfg1.N) (x : S1x1x1024x64.Idx) (k : S4x8x1024x64.Idx)
    (h0 : (k 0).val = win1_2.index t (0 : Fin 4) * 1 + (x 0).val) (h1 : (k 1).val = win1_2.index t (1 : Fin 4) * 1 + (x 1).val)
    (h2 : (k 2).val = win1_2.index t (2 : Fin 4) * 1024 + (x 2).val) (h3 : (k 3).val = win1_2.index t (3 : Fin 4) * 64 + (x 3).val) :
    (iblk1 (F := Ideal) V c 2 t : Vec Ideal S1x1x1024x64 .bf16) x = (V c main_v63 : S4x8x1024x64.Idx → EReal) k := by
  unfold iblk1
  rw [View.read_apply]
  show V c main_v63 _ = V c main_v63 _
  congr 1
  funext a
  apply Fin.ext
  match a with
  | ⟨0, _⟩ => show win1_2.index t (0 : Fin 4) * 1 + 1 * (x 0).val = (k 0).val; omega
  | ⟨1, _⟩ => show win1_2.index t (1 : Fin 4) * 1 + 1 * (x 1).val = (k 1).val; omega
  | ⟨2, _⟩ => show win1_2.index t (2 : Fin 4) * 1024 + 1 * (x 2).val = (k 2).val; omega
  | ⟨3, _⟩ => show win1_2.index t (3 : Fin 4) * 64 + 1 * (x 3).val = (k 3).val; omega

/-- The same of the mask block. -/
theorem iblk_m_apply (c : Dev nD) (t : Fin cfg1.N) (x : S1x1x1024x1024.Idx) (k : S1x1x1024x1024.Idx)
    (h0 : (k 0).val = win1_3.index t (0 : Fin 4) * 1 + (x 0).val) (h1 : (k 1).val = win1_3.index t (1 : Fin 4) * 1 + (x 1).val)
    (h2 : (k 2).val = win1_3.index t (2 : Fin 4) * 1024 + (x 2).val) (h3 : (k 3).val = win1_3.index t (3 : Fin 4) * 1024 + (x 3).val) :
    (iblk1 (F := Ideal) V c 3 t : Vec Ideal S1x1x1024x1024 .i32) x = (V c main_v64 : S1x1x1024x1024.Idx → BitVec 32) k := by
  unfold iblk1
  rw [View.read_apply]
  show V c main_v64 _ = V c main_v64 _
  congr 1
  funext a
  apply Fin.ext
  match a with
  | ⟨0, _⟩ => show win1_3.index t (0 : Fin 4) * 1 + 1 * (x 0).val = (k 0).val; omega
  | ⟨1, _⟩ => show win1_3.index t (1 : Fin 4) * 1 + 1 * (x 1).val = (k 1).val; omega
  | ⟨2, _⟩ => show win1_3.index t (2 : Fin 4) * 1024 + 1 * (x 2).val = (k 2).val; omega
  | ⟨3, _⟩ => show win1_3.index t (3 : Fin 4) * 1024 + 1 * (x 3).val = (k 3).val; omega

/-- Query slab `s` of the query block at the point of block `(b, kv)` is head `4·kv + s` of batch `b` of the query array. -/
theorem slabQ_iblk (c : Dev nD) (t : Fin cfg1.N) (b : Fin 4) (kv : Fin 8) (s : Fin 4) (h : Fin 32)
    (hb : win1_4.index t (0 : Fin 4) = b.val) (hkv : win1_4.index t (1 : Fin 4) = kv.val) (hh : h.val = kv.val * 4 + s.val) :
    slabQ (iblk1 (F := Ideal) V c 0 t : Vec Ideal S1x4x1024x64 .bf16) s = slab32 (V c main_v61) b h := by
  obtain ⟨e0, e1, e2, e3, -⟩ := windows_move_together t
  funext i
  refine iblk_q_apply V c t _ _ ?_ ?_ ?_ ?_
  · show b.val = win1_0.index t (0 : Fin 4) * 1 + 0; omega
  · show h.val = win1_0.index t (1 : Fin 4) * 4 + s.val; omega
  · show (i 0).val = win1_0.index t (2 : Fin 4) * 1024 + (i 0).val; omega
  · show (i 1).val = win1_0.index t (3 : Fin 4) * 64 + (i 1).val; omega

/-- The key block at that point, as a matrix, is key/value head `kv` of batch `b` of the key array. -/
theorem pay3_iblk (c : Dev nD) (t : Fin cfg1.N) (b : Fin 4) (kv : Fin 8)
    (hb : win1_4.index t (0 : Fin 4) = b.val) (hkv : win1_4.index t (1 : Fin 4) = kv.val) :
    k1_pay3 (F := Ideal) (iblk1 (F := Ideal) V c 1 t : Vec Ideal S1x1x1024x64 .bf16) = slab8 (V c main_v62) b kv := by
  obtain ⟨-, -, -, -, e0, e1, e2, e3, -⟩ := windows_move_together t
  funext i
  obtain ⟨p, e, rfl⟩ : ∃ (p : Fin 1024) (e : Fin 64), i = ix2 p e := ⟨i 0, i 1, eq_ix2 i⟩
  unfold k1_pay3
  refine (Cert.Layout.shapeCast_11ab_ab_apply (a := 1024) (b := 64) _ _ p e).trans ?_
  refine iblk_k_apply V c t _ _ ?_ ?_ ?_ ?_
  · show b.val = win1_1.index t (0 : Fin 4) * 1 + 0; omega
  · show kv.val = win1_1.index t (1 : Fin 4) * 1 + 0; omega
  · show p.val = win1_1.index t (2 : Fin 4) * 1024 + p.val; omega
  · show e.val = win1_1.index t (3 : Fin 4) * 64 + e.val; omega

/-- The value block likewise. -/
theorem pay4_iblk (c : Dev nD) (t : Fin cfg1.N) (b : Fin 4) (kv : Fin 8)
    (hb : win1_4.index t (0 : Fin 4) = b.val) (hkv : win1_4.index t (1 : Fin 4) = kv.val) :
    k1_pay4 (F := Ideal) (iblk1 (F := Ideal) V c 2 t : Vec Ideal S1x1x1024x64 .bf16) = slab8 (V c main_v63) b kv := by
  obtain ⟨-, -, -, -, -, -, -, -, e0, e1, e2, e3, -⟩ := windows_move_together t
  funext i
  obtain ⟨p, e, rfl⟩ : ∃ (p : Fin 1024) (e : Fin 64), i = ix2 p e := ⟨i 0, i 1, eq_ix2 i⟩
  unfold k1_pay4
  refine (Cert.Layout.shapeCast_11ab_ab_apply (a := 1024) (b := 64) _ _ p e).trans ?_
  refine iblk_v_apply V c t _ _ ?_ ?_ ?_ ?_
  · show b.val = win1_2.index t (0 : Fin 4) * 1 + 0; omega
  · show kv.val = win1_2.index t (1 : Fin 4) * 1 + 0; omega
  · show p.val = win1_2.index t (2 : Fin 4) * 1024 + p.val; omega
  · show e.val = win1_2.index t (3 : Fin 4) * 64 + e.val; omega

/-- The mask block at every point is the whole mask; its keep-bits are the mask's. -/
theorem pay5_iblk (c : Dev nD) (t : Fin cfg1.N) :
    k1_pay5 (F := Ideal) (iblk1 (F := Ideal) V c 3 t : Vec Ideal S1x1x1024x1024 .i32) = keepOf (V c main_v64) := by
  obtain ⟨-, -, -, -, -, -, -, -, -, -, -, -, e0, e1, e2, e3, -⟩ := windows_move_together t
  funext i
  obtain ⟨p, e, rfl⟩ : ∃ (p : Fin 1024) (e : Fin 1024), i = ix2 p e := ⟨i 0, i 1, eq_ix2 i⟩
  unfold k1_pay5 keepOf
  show IntOp.cmpi .ne (shapeCast S1024x1024 (iblk1 (F := Ideal) V c 3 t : Vec Ideal S1x1x1024x1024 .i32) shapeCasts_S1x1x1024x1024_S1024x1024 (ix2 p e)) 0#32 = _
  refine congrArg (fun z => IntOp.cmpi .ne z 0#32) ?_
  refine (Cert.Layout.shapeCast_11ab_ab_apply (a := 1024) (b := 1024) _ _ p e).trans ?_
  refine iblk_m_apply V c t _ _ ?_ ?_ ?_ ?_
  · show 0 = win1_3.index t (0 : Fin 4) * 1 + 0; omega
  · show 0 = win1_3.index t (1 : Fin 4) * 1 + 0; omega
  · show p.val = win1_3.index t (2 : Fin 4) * 1024 + p.val; omega
  · show e.val = win1_3.index t (3 : Fin 4) * 1024 + e.val; omega

/-! ## The output array -/

/-- What the region's output array ends holding, as ONE function of its index: entry `(b, h, q, d)` is `head` of
    query head `h` of batch `b` against key/value head `h / 4` of that batch, at `(q, d)`. -/
def arrFn (c : Dev nD) : S4x32x1024x64.Idx → EReal := fun i =>
  HeadVec.head (F := Ideal)
    (slab32 (V c main_v61) ⟨(i 0).val, (i 0).isLt⟩ ⟨(i 1).val, (i 1).isLt⟩)
    (slab8 (V c main_v62) ⟨(i 0).val, (i 0).isLt⟩ (Cert.Head.kvOf ⟨(i 1).val, (i 1).isLt⟩))
    (slab8 (V c main_v63) ⟨(i 0).val, (i 0).isLt⟩ (Cert.Head.kvOf ⟨(i 1).val, (i 1).isLt⟩))
    (keepOf (V c main_v64))
    (ix2 (⟨(i 2).val, (i 2).isLt⟩ : Fin 1024) (⟨(i 3).val, (i 3).isLt⟩ : Fin 64))

/-- `arrFn` at an index whose coordinates are `b`, `h`, `q`, `d`. -/
theorem arrFn_apply (c : Dev nD) (i : S4x32x1024x64.Idx) (b : Fin 4) (h : Fin 32) (q : Fin 1024) (d : Fin 64)
    (h0 : (i 0).val = b.val) (h1 : (i 1).val = h.val) (h2 : (i 2).val = q.val) (h3 : (i 3).val = d.val) :
    arrFn V c i = HeadVec.head (F := Ideal) (slab32 (V c main_v61) b h) (slab8 (V c main_v62) b (Cert.Head.kvOf h))
      (slab8 (V c main_v63) b (Cert.Head.kvOf h)) (keepOf (V c main_v64)) (ix2 q d) := by
  have e0 : (⟨(i 0).val, (i 0).isLt⟩ : Fin 4) = b := Fin.ext h0
  have e1 : (⟨(i 1).val, (i 1).isLt⟩ : Fin 32) = h := Fin.ext h1
  have e2 : (⟨(i 2).val, (i 2).isLt⟩ : Fin 1024) = q := Fin.ext h2
  have e3 : (⟨(i 3).val, (i 3).isLt⟩ : Fin 64) = d := Fin.ext h3
  unfold arrFn
  rw [e0, e1, e2, e3]

/-- WHAT POINT `t` WRITES BACK is block `t` of `arrFn`: the four slabs of the output block are `head` of the four
    query slabs of the query block, which are four consecutive heads of one batch of the query array, against the key
    and value blocks, which are that batch's key/value head of the group. -/
theorem written_back_eq (c : Dev nD) (t : Fin cfg1.N) :
    (dat1 (F := Ideal) V c).flushed 4 t = ((cfg1.win 4).blk t).view.read (Elt Ideal) (arrFn V c) := by
  show (cfg1.win 4).cut (grid1.coords t) ((dat1 (F := Ideal) V c).after 4 t) = _
  rw [after1_4]
  obtain ⟨-, -, -, -, -, -, -, -, -, -, -, -, -, -, -, -, hb, hkv, z2, z3⟩ := windows_move_together t
  obtain ⟨b, hb'⟩ : ∃ b : Fin 4, win1_4.index t (0 : Fin 4) = b.val := ⟨⟨_, hb⟩, rfl⟩
  obtain ⟨kv, hkv'⟩ : ∃ kv : Fin 8, win1_4.index t (1 : Fin 4) = kv.val := ⟨⟨_, hkv⟩, rfl⟩
  funext j
  have hj0 : (j 0).val < 1 := (j 0).isLt
  have hj1 : (j 1).val < 4 := (j 1).isLt
  have hj2 : (j 2).val < 1024 := (j 2).isLt
  have hj3 : (j 3).val < 64 := (j 3).isLt
  show out1_4 (F := Ideal) (iblk1 V c 0 t) (iblk1 V c 1 t) (iblk1 V c 2 t) (iblk1 V c 3 t) ((cfg1.win 4).xinj (grid1.coords t) j)
    = arrFn V c (((cfg1.win 4).blk t).view.emb j)
  refine (body_leaves_blockFn (iblk1 V c 0 t) (iblk1 V c 1 t) (iblk1 V c 2 t) (iblk1 V c 3 t) _).trans ?_
  rw [pay3_iblk V c t b kv hb' hkv', pay4_iblk V c t b kv hb' hkv', pay5_iblk V c t]
  have hh : kv.val * 4 + (j 1).val < 32 := by have := kv.isLt; omega
  refine (blockFn_apply _ _ _ _ _ ⟨(j 1).val, hj1⟩ ⟨(j 2).val, hj2⟩ ⟨(j 3).val, hj3⟩ rfl rfl rfl).trans ?_
  rw [slabQ_iblk V c t b kv ⟨(j 1).val, hj1⟩ ⟨kv.val * 4 + (j 1).val, hh⟩ hb' hkv' rfl]
  have hk : Cert.Head.kvOf ⟨kv.val * 4 + (j 1).val, hh⟩ = kv :=
    Fin.ext (by show (kv.val * 4 + (j 1).val) / 4 = kv.val; omega)
  refine Eq.trans ?_ (arrFn_apply V c _ b ⟨kv.val * 4 + (j 1).val, hh⟩ ⟨(j 2).val, hj2⟩ ⟨(j 3).val, hj3⟩ ?_ ?_ ?_ ?_).symm
  · rw [hk]
  · show win1_4.index t (0 : Fin 4) * 1 + 1 * (j 0).val = b.val; omega
  · show win1_4.index t (1 : Fin 4) * 4 + 1 * (j 1).val = kv.val * 4 + (j 1).val; omega
  · show win1_4.index t (2 : Fin 4) * 1024 + 1 * (j 2).val = (j 2).val; omega
  · show win1_4.index t (3 : Fin 4) * 64 + 1 * (j 3).val = (j 3).val; omega

/-- An index of the output array is in point `t`'s block iff each coordinate is in the block's range on its axis. -/
theorem mem_block_iff (t : Fin cfg1.N) (i : S4x32x1024x64.Idx) :
    i ∈ ((cfg1.win 4).blk t).view.set ↔ ∀ a : Fin 4, win1_4.index t a * S1x4x1024x64.size a ≤ (i a).val
      ∧ (i a).val < win1_4.index t a * S1x4x1024x64.size a + S1x4x1024x64.size a := by
  show i ∈ ((View.whole main_v65).slice (win1_4.rect t)).set ↔ _
  rw [View.set_slice_whole, Rect.mem_set_unit]
  exact Iff.rfl

/-- THE OUTPUT ARRAY after all write-backs, head by head: head `h` of batch `b` lies in the block of the point of
    batch `b` and key/value head `h / 4`, whose write-back leaves `arrFn` there. -/
theorem attn_arr_apply (c : Dev nD) (b : Fin 4) (h : Fin 32) (q : Fin 1024) (d : Fin 64) :
    (dat1 (F := Ideal) V c).arrAt 4 cfg1.N (ix4 b h q d)
      = HeadVec.head (F := Ideal) (slab32 (V c main_v61) b h) (slab8 (V c main_v62) b (Cert.Head.kvOf h))
          (slab8 (V c main_v63) b (Cert.Head.kvOf h)) (keepOf (V c main_v64)) (ix2 q d) := by
  obtain ⟨t, ht⟩ := every_group_is_a_point b (Cert.Head.kvOf h)
  have q0 : win1_4.index t (0 : Fin 4) = b.val := congrFun ht 0
  have q1 : win1_4.index t (1 : Fin 4) = (Cert.Head.kvOf h).val := congrFun ht 1
  have q2 : win1_4.index t (2 : Fin 4) = 0 := congrFun ht 2
  have q3 : win1_4.index t (3 : Fin 4) = 0 := congrFun ht 3
  have hkv : (Cert.Head.kvOf h).val = h.val / 4 := rfl
  have hq : q.val < 1024 := q.isLt
  have hd : d.val < 64 := d.isLt
  have hmem : ix4 b h q d ∈ ((cfg1.win 4).blk t).view.set := by
    rw [mem_block_iff]
    intro a
    match a with
    | ⟨0, _⟩ => show win1_4.index t (0 : Fin 4) * 1 ≤ b.val ∧ b.val < win1_4.index t (0 : Fin 4) * 1 + 1; omega
    | ⟨1, _⟩ => show win1_4.index t (1 : Fin 4) * 4 ≤ h.val ∧ h.val < win1_4.index t (1 : Fin 4) * 4 + 4; omega
    | ⟨2, _⟩ => show win1_4.index t (2 : Fin 4) * 1024 ≤ q.val ∧ q.val < win1_4.index t (2 : Fin 4) * 1024 + 1024; omega
    | ⟨3, _⟩ => show win1_4.index t (3 : Fin 4) * 64 ≤ d.val ∧ d.val < win1_4.index t (3 : Fin 4) * 64 + 64; omega
  refine ((dat1 (F := Ideal) V c).arrAt_apply_of_mem 4 (arrFn V c) (fun t _ => written_back_eq V c t) cfg1.N t _ t.isLt (flush1_4 t) hmem).trans ?_
  exact arrFn_apply V c _ b h q d rfl rfl rfl rfl

end Cert.KernelIdeal.AttnRegion

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.HeadRead.lean ====
/-
  One attention head of the kernel body, read at an index.

  The body's chain of vector operations for one query head on `1024 × 64` blocks is, entry by entry, the head on plain
  functions: entry `(p, c)` of the masked scaled scores is the scaled inner product of query row `p` with key row `c`
  where the keep bit is set and `⊥` where it is not; the row maximum at `p` is the fold of `max` from `⊥` over that row;
  the weights are the exponentials of the scores less their row maximum; entry `(p, d)` of the output is the sum over
  the keys of weight times value, divided by the sum of the weights of row `p`. Each non-pointwise operation (the two
  matrix products, the two row reductions, the kept unit axis and its broadcast along a row) is read at an index by
  one lemma; the pointwise operations and the format changes are read by unfolding.
-/
import proofs.«134167_j73263552135848_2_alg».proof.Proof.Gen.KernelIdeal.Skeleton
import proofs.«134167_j73263552135848_2_alg».proof.Proof.LibMatmulNT
import proofs.«134167_j73263552135848_2_alg».proof.Proof.LibMatmulNN
import proofs.«134167_j73263552135848_2_alg».proof.Proof.LibColumnBroadcast
import proofs.«134167_j73263552135848_2_alg».proof.Proof.LibUnitAxes
import proofs.«134167_j73263552135848_2_alg».proof.Proof.LibRank3Layout
import proofs.«134167_j73263552135848_2_alg».proof.Proof.HeadSpec
import proofs.«134167_j73263552135848_2_alg».proof.Proof.HeadVec

set_option synthInstance.maxSize 4096

noncomputable section

namespace Cert.KernelIdeal.HeadRead

open Cert.KernelIdeal Cert.KernelIdeal.Gen Idealize.ShloMosaic Idealize.ShloMosaic.ValueIdx

/-! ## The non-pointwise operations at an index -/

/-- Entry `(p, c)` of `q kᵀ` into a zero accumulator: row `p` of `q` against row `c` of `k`, over the 64 lanes. -/
theorem qk_apply (q1 k1 : FVec Ideal S1024x64 .bf16) (p c : Fin 1024) :
    matmul dot_S1024x64_S1024x64_S1024x1024_1_1_0_0_n_n none q1 k1 (constant (F := Ideal) S1024x1024 .f32 0x00000000#32) (ix2 p c)
      = ∑ e : Fin 64, q1 (ix2 p e) * k1 (ix2 c e) :=
  Cert.LibMatmulNT.matmul_zero_apply (M := 1024) (N := 1024) (K := 64) dot_S1024x64_S1024x64_S1024x1024_1_1_0_0_n_n_wf none q1 k1 p c

/-- Entry `(p, d)` of `w v` into a zero accumulator: row `p` of `w` against column `d` of `v`, over the 1024 keys.
    The format change of `w` before the product is the identity on the extended reals. -/
theorem wv_apply (w : FVec Ideal S1024x1024 .f32) (v1 : FVec Ideal S1024x64 .bf16) (p : Fin 1024) (d : Fin 64) :
    matmul dot_S1024x1024_S1024x64_S1024x64_1_0_0_1_n_n none (truncf .bf16 w bitsLt_bf16_f32) v1
        (constant (F := Ideal) S1024x64 .f32 0x00000000#32) (ix2 p d)
      = ∑ k : Fin 1024, w (ix2 p k) * v1 (ix2 k d) :=
  Cert.LibMatmulNN.matmul_zero_apply (M := 1024) (N := 64) (K := 1024) dot_S1024x1024_S1024x64_S1024x64_1_0_0_1_n_n_wf none
    (truncf .bf16 w bitsLt_bf16_f32) v1 p d

/-- The starting pattern of the row maximum is `-∞`. -/
theorem ofBits_neg_inf : FloatOps.ofBits (F := Ideal) .f32 0xFF800000#32 = (⊥ : EReal) := by
  simp [Ideal.ofBits, Ideal.ieee]

/-- The row maximum at `p`: the fold of `max` from `⊥` over the entries `(p, k)` of the row. -/
theorem rowMax_apply (s : FVec Ideal S1024x1024 .f32) (hφ : FKind.Formats .f32)
    (hacc : (0xFF800000#32 : BitVec 32) = FKind.maximumf.neutral .f32 hφ) (p : Fin 1024) :
    multiReduction .maximumf [1] S1024 s 0xFF800000#32 reduces_S1024x1024_S1024 hφ hacc (ix1 p)
      = (Finset.univ : Finset (Fin 1024)).fold max (⊥ : EReal) (fun k => s (ix2 p k)) := by
  refine (Ideal.multiReduction_maximumf_single s 0xFF800000#32 reduces_S1024x1024_S1024 hφ hacc (ix1 p)).trans ?_
  rw [ofBits_neg_inf]
  refine congrArg (Finset.fold max (⊥ : EReal) · Finset.univ) (funext fun k => congrArg s (funext fun a => Fin.ext ?_))
  match a with
  | ⟨0, _⟩ => rfl
  | ⟨1, _⟩ => rfl

/-- The row sum at `p`: the sum of the entries `(p, k)` of the row. -/
theorem rowSum_apply (w : FVec Ideal S1024x1024 .f32) (hφ : FKind.Formats .f32)
    (hacc : (0x00000000#32 : BitVec 32) = FKind.add.neutral .f32 hφ) (p : Fin 1024) :
    multiReduction .add [1] S1024 w 0x00000000#32 reduces_S1024x1024_S1024 hφ hacc (ix1 p) = ∑ k : Fin 1024, w (ix2 p k) :=
  Cert.LibRank3.sum_row_apply (a := 1024) (b := 1024) w 0x00000000#32 reduces_S1024x1024_S1024 hφ hacc p

/-- A row statistic kept as a column and repeated along the 1024 keys reads, at `(p, c)`, the statistic of row `p`. -/
theorem column_keys_apply (m : FVec Ideal S1024 .f32) (p c : Fin 1024) :
    broadcastTo S1024x1024 (shapeCast S1024x1 m shapeCasts_S1024_S1024x1) broadcasts_S1024x1_S1024x1024 (ix2 p c) = m (ix1 p) :=
  (Cert.Layout.broadcastTo_a1_ab_apply (a := 1024) (b := 1024) (shapeCast S1024x1 m shapeCasts_S1024_S1024x1)
      broadcasts_S1024x1_S1024x1024 p c).trans
    (Cert.Layout.shapeCast_a_a1_apply (a := 1024) m shapeCasts_S1024_S1024x1 p)

/-- A row statistic kept as a column and repeated along the 64 lanes reads, at `(p, d)`, the statistic of row `p`. -/
theorem column_lanes_apply (m : FVec Ideal S1024 .f32) (p : Fin 1024) (d : Fin 64) :
    broadcastTo S1024x64 (shapeCast S1024x1 m shapeCasts_S1024_S1024x1) broadcasts_S1024x1_S1024x64 (ix2 p d) = m (ix1 p) :=
  (Cert.Layout.broadcastTo_a1_ab_apply (a := 1024) (b := 64) (shapeCast S1024x1 m shapeCasts_S1024_S1024x1)
      broadcasts_S1024x1_S1024x64 p d).trans
    (Cert.Layout.shapeCast_a_a1_apply (a := 1024) m shapeCasts_S1024_S1024x1 p)

/-- The fill constant of the dropped pairs is `⊥` on the extended reals: the certificate's table names it so. -/
theorem neg_big : Named.named (F := Ideal) Cert.KernelIdeal.κ "neg_big" (φ := .f32) 0xFF333332#32 = (⊥ : EReal) :=
  IdealRules.named_const.ideal_named_scalar _ _ _ _ rfl

/-! ## The chain -/

section chain

variable (q1 k1 v1 : FVec Ideal S1024x64 .bf16) (keep : IVec S1024x1024 1)

/-- The masked scaled scores: `q kᵀ · 2⁻³` where the keep bit is set, the fill constant where it is not. -/
def scores : FVec Ideal S1024x1024 .f32 :=
  select keep
    (mulf (matmul dot_S1024x64_S1024x64_S1024x1024_1_1_0_0_n_n none q1 k1 (constant (F := Ideal) S1024x1024 .f32 0x00000000#32))
      (broadcast S1024x1024 (Scalar.ofBits (F := Ideal) .f32 0x3E000000#32)))
    (broadcast S1024x1024 (Named.named (F := Ideal) Cert.KernelIdeal.κ "neg_big" (φ := .f32) 0xFF333332#32))

/-- The weights: the exponentials of the scores less their row maximum, the maximum kept as a column and repeated
    along the row. -/
def weights : FVec Ideal S1024x1024 .f32 :=
  exp (subf (scores q1 k1 keep)
    (broadcastTo S1024x1024
      (shapeCast S1024x1
        (multiReduction .maximumf [1] S1024 (scores q1 k1 keep) 0xFF800000#32 reduces_S1024x1024_S1024 (.inl rfl) rfl)
        shapeCasts_S1024_S1024x1)
      broadcasts_S1024x1_S1024x1024))

/-- Entry `(p, c)` of the scores is the score of key `c` for query `p`. -/
theorem scores_apply (p c : Fin 1024) :
    scores q1 k1 keep (ix2 p c)
      = Cert.Head.score (fun a e => q1 (ix2 a e)) (fun a e => k1 (ix2 a e)) (fun a b => keep (ix2 a b)) p c := by
  show Scalar.select (keep (ix2 p c))
      (matmul dot_S1024x64_S1024x64_S1024x1024_1_1_0_0_n_n none q1 k1 (constant (F := Ideal) S1024x1024 .f32 0x00000000#32) (ix2 p c)
        * Ideal.ofBits .f32 0x3E000000#32)
      (Named.named (F := Ideal) Cert.KernelIdeal.κ "neg_big" (φ := .f32) 0xFF333332#32)
    = Scalar.select (keep (ix2 p c)) ((∑ e : Fin 64, q1 (ix2 p e) * k1 (ix2 c e)) * Ideal.ofBits .f32 0x3E000000#32) (⊥ : EReal)
  rw [qk_apply, neg_big]

/-- The row maximum of the scores at `p` is the largest score of query `p`. -/
theorem scores_rowMax (p : Fin 1024) :
    multiReduction .maximumf [1] S1024 (scores q1 k1 keep) 0xFF800000#32 reduces_S1024x1024_S1024 (.inl rfl) rfl (ix1 p)
      = Cert.Head.rowMax (Cert.Head.score (fun a e => q1 (ix2 a e)) (fun a e => k1 (ix2 a e)) (fun a b => keep (ix2 a b)) p) :=
  (rowMax_apply (scores q1 k1 keep) (.inl rfl) rfl p).trans
    (congrArg (Finset.fold max (⊥ : EReal) · Finset.univ) (funext fun k => scores_apply q1 k1 keep p k))

/-- Entry `(p, c)` of the weights is the weight of key `c` for query `p`. -/
theorem weights_apply (p c : Fin 1024) :
    weights q1 k1 keep (ix2 p c)
      = Cert.Head.weight (fun a e => q1 (ix2 a e)) (fun a e => k1 (ix2 a e)) (fun a b => keep (ix2 a b)) p c := by
  have hcol := (column_keys_apply
    (multiReduction .maximumf [1] S1024 (scores q1 k1 keep) 0xFF800000#32 reduces_S1024x1024_S1024 (.inl rfl) rfl) p c).trans
    (scores_rowMax q1 k1 keep p)
  exact congrArg Ideal.exp (congrArg₂ (fun x y : EReal => x - y) (scores_apply q1 k1 keep p c) hcol)

/-- The head is the weighted values divided by the row sums of the weights (the last format change is the identity). -/
theorem head_eq (p : Fin 1024) (d : Fin 64) :
    HeadVec.head (F := Ideal) q1 k1 v1 keep (ix2 p d)
      = Ideal.div
          (matmul dot_S1024x1024_S1024x64_S1024x64_1_0_0_1_n_n none (truncf .bf16 (weights q1 k1 keep) bitsLt_bf16_f32) v1
            (constant (F := Ideal) S1024x64 .f32 0x00000000#32) (ix2 p d))
          (broadcastTo S1024x64
            (shapeCast S1024x1
              (multiReduction .add [1] S1024 (weights q1 k1 keep) 0x00000000#32 reduces_S1024x1024_S1024 (.inl rfl) rfl)
              shapeCasts_S1024_S1024x1)
            broadcasts_S1024x1_S1024x64 (ix2 p d)) :=
  rfl

end chain

/-- One attention head of the kernel body at `(p, d)`: the head on plain functions, normalised after the weighted sum. -/
theorem head_apply (q1 k1 v1 : FVec Ideal S1024x64 .bf16) (keep : IVec S1024x1024 1) (p : Fin 1024) (d : Fin 64) :
    HeadVec.head (F := Ideal) q1 k1 v1 keep (ix2 p d)
      = Cert.Head.after (fun a e => q1 (ix2 a e)) (fun a e => k1 (ix2 a e)) (fun a e => v1 (ix2 a e))
          (fun a b => keep (ix2 a b)) p d := by
  refine (head_eq q1 k1 v1 keep p d).trans ?_
  unfold Cert.Head.after
  refine congrArg₂ Ideal.div ?_ ?_
  · refine (wv_apply (weights q1 k1 keep) v1 p d).trans ?_
    exact Finset.sum_congr rfl fun k _ => congrArg (· * v1 (ix2 k d)) (weights_apply q1 k1 keep p k)
  · refine (column_lanes_apply _ p d).trans ?_
    refine (rowSum_apply (weights q1 k1 keep) (.inl rfl) rfl p).trans ?_
    exact Finset.sum_congr rfl fun k _ => weights_apply q1 k1 keep p k

end Cert.KernelIdeal.HeadRead

end
-- ==== Proof.RefAttn.lean ====
/-
  The reference's attention, read at an index.

  From the query rows `q : [4,32,1024,64]`, the key and value rows `k, v : [4,8,1024,64]` and the mask's keep-bits
  `[1,1,1024,1024]`, the reference repeats each key/value head over its group of four query heads (a broadcast to
  `[4,8,4,1024,64]` followed by a reshape to `[4,32,1024,64]`), contracts queries with keys over the 64 lanes, scales by
  `2⁻³`, replaces the dropped pairs by `-∞`, subtracts each row's maximum, exponentiates, divides every weight by its
  row's sum, and contracts with the repeated values over the 1024 keys.

  Entry `(b, h, k, e)` of a repeated array is entry `(b, h / 4, k, e)` of the `[4,8,1024,64]` one: in the row-major
  layout head `h` of 32 is `(h / 4) * 4 + h % 4`, group `h / 4`, copy `h % 4`, and the broadcast does not read the copy.
  The row maximum is a reduction by `max` from `-∞ = ⊥` along the last axis, that is the fold of `max` from `⊥` over the
  row's 1024 masked scores; taking `max ⊥ ·` of it once more changes nothing. The row sum starts from the zero word.

  Each stage below is the stage's value at an index built from its coordinates, in terms of the slices of `q`, `k`, `v`
  of one batch `b` and head `h` (`qRows`, `kRows`, `vRows`) and the mask's bits (`keepBits`); the last theorem is the
  output: `Cert.Head.before` of those slices, head by head. The stages that produce `q`, `k`, `v` are never opened.
-/
import proofs.«134167_j73263552135848_2_alg».proof.Proof.Gen.ReferenceIdeal.Read
import proofs.«134167_j73263552135848_2_alg».proof.Proof.HeadSpec
import Idealize.ShloMosaic.PureOps.Reduce
import Idealize.ShloMosaic.PureOps.Ideal.Laws
import Idealize.ShloMosaic.Lib.ValueIdx

noncomputable section

namespace Cert.ReferenceIdeal.RefAttn

open Cert.ReferenceIdeal Cert.ReferenceIdeal.Read Idealize.ShloMosaic Idealize.ShloMosaic.ValueIdx

/-- The word `0xFF800000` is negative infinity: the bottom of the extended reals. -/
theorem negInf : Ideal.ofBits .f32 0xFF800000#32 = (⊥ : EReal) := by simp [Ideal.ofBits, Ideal.ieee]

/-- The last axis of a `[4,32,1024,1024]` array is the one a row reduction drops. -/
theorem reduces_last : S4x32x1024x1024.Reduces [3] S4x32x1024 := by decide

/-- Inserting key `k` on the dropped axis of row `(b, h, q)` gives entry `(b, h, q, k)`. -/
theorem lift_last (b : Fin 4) (h : Fin 32) (q k : Fin 1024) : reduces_last.lift (ix3 b h q) k = ix4 b h q k :=
  funext fun a => Fin.ext (by match a with | ⟨0, _⟩ => rfl | ⟨1, _⟩ => rfl | ⟨2, _⟩ => rfl | ⟨3, _⟩ => rfl)

/-- A row reduction by `max` from negative infinity, read at row `(b, h, q)`: the fold of `max` from `⊥` over the
    row's 1024 entries. -/
theorem rowmax_fold (y : (⟨S4x32x1024x1024, .f32⟩ : BufTy).Contents (Elt Ideal)) (b : Fin 4) (h : Fin 32) (q : Fin 1024) :
    Host.reduce (FloatOps.maximumf (F := Ideal) (φ := .f32)) y (val_main_cst_1 (F := Ideal)) Gen.reducesTo_S4x32x1024x1024_S4x32x1024_d3 Gen.h_S_ (ix3 b h q)
      = (Finset.univ : Finset (Fin 1024)).fold max ⊥ (fun k => y (ix4 b h q k)) := by
  have e := Host.reduce_eq_fold_single (α := EReal) (s := S4x32x1024x1024) (t := S4x32x1024) (u := S_) (FloatOps.maximumf (F := Ideal) (φ := .f32)) y (val_main_cst_1 (F := Ideal))
    Gen.reducesTo_S4x32x1024x1024_S4x32x1024_d3 reduces_last Gen.h_S_ (ix3 b h q)
  refine e.trans ?_
  have hinit : val_main_cst_1 (F := Ideal) (Shape.Idx.first Gen.h_S_) = (⊥ : EReal) := negInf
  rw [hinit]
  exact Finset.fold_congr fun k _ => congrArg y (lift_last b h q k)

/-- The repeated keys: query head `h` reads key head `h / 4` (`h = (h / 4) * 4 + h % 4` in the flattened layout). -/
theorem keys_repeat (x0 : (⟨S4x1024x2048, .f32⟩ : BufTy).Contents (Elt Ideal)) (x1 : (⟨S1024x32x2, .f32⟩ : BufTy).Contents (Elt Ideal))
    (x3 : (⟨S3072x2048, .f32⟩ : BufTy).Contents (Elt Ideal)) (b : Fin 4) (h : Fin 32) (k : Fin 1024) (e : Fin 64) :
    val_main_v59 (F := Ideal) x0 x1 x3 (ix4 b h k e) = val_main_v56 (F := Ideal) x0 x1 x3 (ix4 b (Cert.Head.kvOf h) k e) := by
  rw [val_main_v59_apply, val_main_v58_apply]
  refine congrArg (val_main_v56 (F := Ideal) x0 x1 x3) (funext fun a => Fin.ext ?_)
  have hb := b.isLt; have hh := h.isLt; have hk := k.isLt; have he := e.isLt
  match a with
  | ⟨0, _⟩ => show (((b.val * 32 + h.val) * 1024 + k.val) * 64 + e.val) / 2097152 = b.val; omega
  | ⟨1, _⟩ => show (((b.val * 32 + h.val) * 1024 + k.val) * 64 + e.val) / 262144 % 8 = h.val / 4; omega
  | ⟨2, _⟩ => show (((b.val * 32 + h.val) * 1024 + k.val) * 64 + e.val) / 64 % 1024 = k.val; omega
  | ⟨3, _⟩ => show (((b.val * 32 + h.val) * 1024 + k.val) * 64 + e.val) % 64 = e.val; omega

/-- The repeated values, likewise. -/
theorem values_repeat (x0 : (⟨S4x1024x2048, .f32⟩ : BufTy).Contents (Elt Ideal))
    (x3 : (⟨S3072x2048, .f32⟩ : BufTy).Contents (Elt Ideal)) (b : Fin 4) (h : Fin 32) (k : Fin 1024) (e : Fin 64) :
    val_main_v61 (F := Ideal) x0 x3 (ix4 b h k e) = val_main_v57 (F := Ideal) x0 x3 (ix4 b (Cert.Head.kvOf h) k e) := by
  rw [val_main_v61_apply, val_main_v60_apply]
  refine congrArg (val_main_v57 (F := Ideal) x0 x3) (funext fun a => Fin.ext ?_)
  have hb := b.isLt; have hh := h.isLt; have hk := k.isLt; have he := e.isLt
  match a with
  | ⟨0, _⟩ => show (((b.val * 32 + h.val) * 1024 + k.val) * 64 + e.val) / 2097152 = b.val; omega
  | ⟨1, _⟩ => show (((b.val * 32 + h.val) * 1024 + k.val) * 64 + e.val) / 262144 % 8 = h.val / 4; omega
  | ⟨2, _⟩ => show (((b.val * 32 + h.val) * 1024 + k.val) * 64 + e.val) / 64 % 1024 = k.val; omega
  | ⟨3, _⟩ => show (((b.val * 32 + h.val) * 1024 + k.val) * 64 + e.val) % 64 = e.val; omega

section Head

variable (x0 : (⟨S4x1024x2048, .f32⟩ : BufTy).Contents (Elt Ideal)) (x1 : (⟨S1024x32x2, .f32⟩ : BufTy).Contents (Elt Ideal))
    (x2 : (⟨S1x1x1024x1024, .i1⟩ : BufTy).Contents (Elt Ideal)) (x3 : (⟨S3072x2048, .f32⟩ : BufTy).Contents (Elt Ideal))
    (b : Fin 4) (h : Fin 32)

/-- The query rows of head `h` of batch `b`. -/
abbrev qRows : Fin 1024 → Fin 64 → EReal := fun a e => val_main_v55 (F := Ideal) x0 x1 x3 (ix4 b h a e)
/-- The key rows that head reads: those of key head `h / 4`. -/
abbrev kRows : Fin 1024 → Fin 64 → EReal := fun a e => val_main_v56 (F := Ideal) x0 x1 x3 (ix4 b (Cert.Head.kvOf h) a e)
/-- The value rows that head reads. -/
abbrev vRows : Fin 1024 → Fin 64 → EReal := fun a e => val_main_v57 (F := Ideal) x0 x3 (ix4 b (Cert.Head.kvOf h) a e)
/-- The mask's keep-bits, shared by every batch and head. -/
abbrev keepBits : Fin 1024 → Fin 1024 → BitVec 1 := fun a k => x2 (ix4 (0 : Fin 1) (0 : Fin 1) a k)

/-- The raw scores: the inner product of a query row with a key row over the 64 lanes. -/
theorem scores_apply (q k : Fin 1024) :
    val_main_v62 (F := Ideal) x0 x1 x3 (ix4 b h q k) = ∑ e : Fin 64, qRows x0 x1 x3 b h q e * kRows x0 x1 x3 b h k e := by
  rw [val_main_v62_apply]
  refine Finset.sum_congr rfl fun e _ => ?_
  have el : lidx_main_v62 (ix4 b h q k) e = ix4 b h q e := funext fun a => Fin.ext (by match a with | ⟨0, _⟩ => rfl | ⟨1, _⟩ => rfl | ⟨2, _⟩ => rfl | ⟨3, _⟩ => rfl)
  have er : ridx_main_v62 (ix4 b h q k) e = ix4 b h k e := funext fun a => Fin.ext (by match a with | ⟨0, _⟩ => rfl | ⟨1, _⟩ => rfl | ⟨2, _⟩ => rfl | ⟨3, _⟩ => rfl)
  rw [el, er, keys_repeat]

/-- The scaled scores. -/
theorem scaled_apply (q k : Fin 1024) :
    val_main_v64 (F := Ideal) x0 x1 x3 (ix4 b h q k)
      = (∑ e : Fin 64, qRows x0 x1 x3 b h q e * kRows x0 x1 x3 b h k e) * Cert.Head.scale := by
  rw [val_main_v64_apply, val_main_v63_apply, val_main_cst_apply, scores_apply]
  rfl

/-- The masked scores are the head's `score`. -/
theorem masked_apply (q k : Fin 1024) :
    val_main_v65 (F := Ideal) x0 x1 x2 x3 (ix4 b h q k)
      = Cert.Head.score (qRows x0 x1 x3 b h) (kRows x0 x1 x3 b h) (keepBits x2) q k := by
  have ek : idx_main_call0_v0 (ix4 b h q k) = ix4 (0 : Fin 1) (0 : Fin 1) q k := funext fun a => Fin.ext (by match a with | ⟨0, _⟩ => rfl | ⟨1, _⟩ => rfl | ⟨2, _⟩ => rfl | ⟨3, _⟩ => rfl)
  rw [val_main_v65_apply, val_main_call0_v0_apply, val_main_call0_v1_apply, val_main_cst_0_apply, scaled_apply, ek]
  unfold Cert.Head.score
  exact congrArg (Scalar.select _ _) negInf

/-- The row maximum: the fold of `max` from `⊥` over the row's 1024 scores. -/
theorem rowmax_apply (q : Fin 1024) :
    val_main_v66 (F := Ideal) x0 x1 x2 x3 (ix3 b h q)
      = Cert.Head.rowMax (Cert.Head.score (qRows x0 x1 x3 b h) (kRows x0 x1 x3 b h) (keepBits x2) q) := by
  unfold val_main_v66
  refine (rowmax_fold (val_main_v65 (F := Ideal) x0 x1 x2 x3) b h q).trans ?_
  unfold Cert.Head.rowMax
  exact Finset.fold_congr fun k _ => masked_apply x0 x1 x2 x3 b h q k

/-- Taking the maximum with negative infinity once more changes nothing. -/
theorem rowmax_stable (q : Fin 1024) :
    val_main_v68 (F := Ideal) x0 x1 x2 x3 (ix3 b h q)
      = Cert.Head.rowMax (Cert.Head.score (qRows x0 x1 x3 b h) (kRows x0 x1 x3 b h) (keepBits x2) q) := by
  rw [val_main_v68_apply, val_main_v67_apply, val_main_cst_2_apply, rowmax_apply]
  show max (Ideal.ofBits .f32 0xFF800000#32) _ = _
  rw [negInf, max_bot_left]

/-- The row maximum broadcast back along the keys. -/
theorem rowmax_bcast (q k : Fin 1024) :
    val_main_v70 (F := Ideal) x0 x1 x2 x3 (ix4 b h q k)
      = Cert.Head.rowMax (Cert.Head.score (qRows x0 x1 x3 b h) (kRows x0 x1 x3 b h) (keepBits x2) q) := by
  have e : idx_main_v69 (idx_main_v70 (ix4 b h q k)) = ix3 b h q := funext fun a => Fin.ext (by match a with | ⟨0, _⟩ => rfl | ⟨1, _⟩ => rfl | ⟨2, _⟩ => rfl)
  rw [val_main_v70_apply, val_main_v69_apply, e, rowmax_stable]

/-- The exponentials are the head's unnormalised weights. -/
theorem weight_apply (q k : Fin 1024) :
    val_main_v72 (F := Ideal) x0 x1 x2 x3 (ix4 b h q k)
      = Cert.Head.weight (qRows x0 x1 x3 b h) (kRows x0 x1 x3 b h) (keepBits x2) q k := by
  rw [val_main_v72_apply, val_main_v71_apply, masked_apply, rowmax_bcast]
  rfl

/-- The row sums of the weights (the sum starts from the zero word). -/
theorem rowsum_apply (q : Fin 1024) :
    val_main_v73 (F := Ideal) x0 x1 x2 x3 (ix3 b h q)
      = ∑ j, Cert.Head.weight (qRows x0 x1 x3 b h) (kRows x0 x1 x3 b h) (keepBits x2) q j := by
  rw [val_main_v73_apply, val_main_cst_3_apply]
  have z : FloatOps.ofBits (F := Ideal) .f32 0x00000000#32 = (0 : EReal) := Ideal.ofBits_zero_f32
  rw [z, zero_add]
  refine Finset.sum_congr rfl fun j _ => ?_
  have e : idx_main_v73 (ix3 b h q) j = ix4 b h q j := funext fun a => Fin.ext (by match a with | ⟨0, _⟩ => rfl | ⟨1, _⟩ => rfl | ⟨2, _⟩ => rfl | ⟨3, _⟩ => rfl)
  rw [e, weight_apply]

/-- Each weight divided by its row's sum. -/
theorem prob_apply (q k : Fin 1024) :
    val_main_v76 (F := Ideal) x0 x1 x2 x3 (ix4 b h q k)
      = Ideal.div (Cert.Head.weight (qRows x0 x1 x3 b h) (kRows x0 x1 x3 b h) (keepBits x2) q k)
          (∑ j, Cert.Head.weight (qRows x0 x1 x3 b h) (kRows x0 x1 x3 b h) (keepBits x2) q j) := by
  have e : idx_main_v74 (idx_main_v75 (ix4 b h q k)) = ix3 b h q := funext fun a => Fin.ext (by match a with | ⟨0, _⟩ => rfl | ⟨1, _⟩ => rfl | ⟨2, _⟩ => rfl)
  rw [val_main_v76_apply, val_main_v75_apply, val_main_v74_apply, e, weight_apply, rowsum_apply]
  rfl

end Head

/-- The reference's attention output at `(b, h, q, d)`: the head's output with each weight normalised before the
    weighted sum of the values, on the query rows of head `h`, the key and value rows of head `h / 4`, and the mask's bits. -/
theorem attn_apply (x0 : (⟨S4x1024x2048, .f32⟩ : BufTy).Contents (Elt Ideal)) (x1 : (⟨S1024x32x2, .f32⟩ : BufTy).Contents (Elt Ideal))
    (x2 : (⟨S1x1x1024x1024, .i1⟩ : BufTy).Contents (Elt Ideal)) (x3 : (⟨S3072x2048, .f32⟩ : BufTy).Contents (Elt Ideal))
    (b : Fin 4) (h : Fin 32) (q : Fin 1024) (d : Fin 64) :
    val_main_v77 (F := Ideal) x0 x1 x2 x3 (ix4 b h q d)
      = Cert.Head.before (fun a e => val_main_v55 (F := Ideal) x0 x1 x3 (ix4 b h a e))
          (fun a e => val_main_v56 (F := Ideal) x0 x1 x3 (ix4 b (Cert.Head.kvOf h) a e))
          (fun a e => val_main_v57 (F := Ideal) x0 x3 (ix4 b (Cert.Head.kvOf h) a e))
          (fun a k => x2 (ix4 (0 : Fin 1) (0 : Fin 1) a k)) q d := by
  rw [val_main_v77_apply]
  unfold Cert.Head.before
  refine Finset.sum_congr rfl fun k _ => ?_
  have el : lidx_main_v77 (ix4 b h q d) k = ix4 b h q k := funext fun a => Fin.ext (by match a with | ⟨0, _⟩ => rfl | ⟨1, _⟩ => rfl | ⟨2, _⟩ => rfl | ⟨3, _⟩ => rfl)
  have er : ridx_main_v77 (ix4 b h q d) k = ix4 b h k d := funext fun a => Fin.ext (by match a with | ⟨0, _⟩ => rfl | ⟨1, _⟩ => rfl | ⟨2, _⟩ => rfl | ⟨3, _⟩ => rfl)
  rw [el, er, prob_apply, values_repeat]

end Cert.ReferenceIdeal.RefAttn

end
-- ==== Proof.LibRealEntries.lean ====
/-
  Arrays all of whose entries are real numbers.

  At the exact instance an input array may hold `±∞`; the precondition says the float inputs do not. Every array the
  programs build from such inputs by re-laying entries (casts, slices, broadcasts, transposes, concatenations), by
  entrywise sums, differences and products, and by inner products, again holds only real numbers: an entry of a re-laid
  array IS an entry of its operand, and the real numbers are closed under `+`, `-`, `*` and finite sums.
-/
import Idealize.ShloMosaic.PureOps
import Idealize.ShloMosaic.PureOps.Ideal
import proofs.«134167_j73263552135848_2_alg».proof.Proof.LibRowSoftmax

noncomputable section

namespace Cert.RealEntries

open Idealize.ShloMosaic

/-- Every entry of the array is (the embedding of) a real number. -/
def AllReal {ι : Type} (x : ι → EReal) : Prop := ∀ i, ∃ r : ℝ, x i = (r : EReal)

variable {s t : Shape}

/-- A shape cast re-lays the same entries. -/
theorem shapeCast {x : s.Idx → EReal} (hx : AllReal x) (h : s.ShapeCasts t) :
    AllReal (Idealize.ShloMosaic.shapeCast t x h) := fun _ => hx _

/-- A slice holds entries of its operand. -/
theorem slice {x : s.Idx → EReal} (hx : AllReal x) (off : Fin s.rank → Nat) (h : s.Slices off t) :
    AllReal (extractStridedSlice t off x h) := fun _ => hx _

/-- A broadcast holds entries of its operand. -/
theorem bcast {x : s.Idx → EReal} (hx : AllReal x) (dims : Fin s.rank → Fin t.rank) (h : s.BroadcastsInDim t dims) :
    AllReal (broadcastInDim t dims h x) := fun _ => hx _

/-- A transpose holds the entries of its operand. -/
theorem transpose {x : s.Idx → EReal} (hx : AllReal x) (perm : List (Fin s.rank)) (h : s.Transposes perm t) :
    AllReal (Idealize.ShloMosaic.transpose t perm x h) := fun _ => hx _

/-- A concatenation of two arrays holds entries of one or the other. -/
theorem concat2 {s1 s2 : Shape} (a : Fin t.rank) {u : s1.Idx → EReal} {v : s2.Idx → EReal} (hu : AllReal u) (hv : AllReal v)
    (h : Shape.Concatenates (([⟨s1, u⟩, ⟨s2, v⟩] : List ((s : Shape) × (s.Idx → EReal))).map (·.1)) t a) :
    AllReal (concatenate t a [⟨s1, u⟩, ⟨s2, v⟩] h) := by
  intro j
  have key : ∀ p ∈ ([⟨s1, u⟩, ⟨s2, v⟩] : List ((s : Shape) × (s.Idx → EReal))), ∀ i, ∃ r : ℝ, p.2 i = (r : EReal) := by
    intro p hp
    simp only [List.mem_cons, List.not_mem_nil, or_false] at hp
    rcases hp with rfl | rfl
    · exact hu
    · exact hv
  unfold concatenate
  exact key _ (List.getElem_mem _) _

/-- Entrywise products of real entries are real. -/
theorem mulf {φ : FTy} {x y : FVec Ideal s φ} (hx : AllReal x) (hy : AllReal y) : AllReal (Idealize.ShloMosaic.mulf x y) := fun i => by
  obtain ⟨a, ha⟩ := hx i
  obtain ⟨b, hb⟩ := hy i
  exact ⟨a * b, by show x i * y i = _; rw [ha, hb, EReal.coe_mul]⟩

/-- Entrywise sums of real entries are real. -/
theorem addf {φ : FTy} {x y : FVec Ideal s φ} (hx : AllReal x) (hy : AllReal y) : AllReal (Idealize.ShloMosaic.addf x y) := fun i => by
  obtain ⟨a, ha⟩ := hx i
  obtain ⟨b, hb⟩ := hy i
  exact ⟨a + b, by show x i + y i = _; rw [ha, hb, EReal.coe_add]⟩

/-- Entrywise differences of real entries are real. -/
theorem subf {φ : FTy} {x y : FVec Ideal s φ} (hx : AllReal x) (hy : AllReal y) : AllReal (Idealize.ShloMosaic.subf x y) := fun i => by
  obtain ⟨a, ha⟩ := hx i
  obtain ⟨b, hb⟩ := hy i
  exact ⟨a - b, by show x i - y i = _; rw [ha, hb, EReal.coe_sub]⟩

/-- A finite sum of products of real numbers is a real number. -/
theorem sum_mul_real {n : ℕ} (f g : Fin n → EReal) (hf : ∀ k, ∃ r : ℝ, f k = (r : EReal)) (hg : ∀ k, ∃ r : ℝ, g k = (r : EReal)) :
    ∃ r : ℝ, (∑ k : Fin n, f k * g k) = (r : EReal) := by
  choose A hA using hf
  choose B hB using hg
  refine ⟨∑ k, A k * B k, ?_⟩
  simp only [hA, hB, ← EReal.coe_mul]
  exact RowSoftmax.coe_finset_sum _ _

end Cert.RealEntries

end
-- ==== Proof.RefReal.lean ====
/-
  The arrays entering the attention hold real numbers.

  With every entry of `x`, of the angle table and of the projection weights a real number, the projected array (inner
  products of rows), its query, key and value parts, and the rotated queries and keys (products, sums and differences of
  entries, re-laid) hold only real numbers.
-/
import proofs.«134167_j73263552135848_2_alg».proof.Proof.Gen.ReferenceIdeal.Read
import proofs.«134167_j73263552135848_2_alg».proof.Proof.LibRealEntries

set_option maxRecDepth 16384

noncomputable section

namespace Cert.ReferenceIdeal.RefReal

open Cert.ReferenceIdeal Cert.ReferenceIdeal.Read Idealize.ShloMosaic Cert.RealEntries

/-- Closes "every entry is real" for an array built from arrays known to be real by re-laying and entrywise arithmetic. -/
macro "real_entries" : tactic => `(tactic| repeat' first
  | with_reducible assumption
  | with_reducible apply RealEntries.transpose | with_reducible apply RealEntries.shapeCast
  | with_reducible apply RealEntries.slice | with_reducible apply RealEntries.bcast
  | with_reducible apply RealEntries.concat2 | with_reducible apply RealEntries.mulf
  | with_reducible apply RealEntries.subf | with_reducible apply RealEntries.addf)

variable (x0 : S4x1024x2048.Idx → EReal) (x1 : S1024x32x2.Idx → EReal) (x3 : S3072x2048.Idx → EReal)

/-- The projected array: each entry an inner product of a row of `x` with a row of the weights. -/
theorem projected_real (h0 : AllReal x0) (h3 : AllReal x3) : AllReal (val_main_v0 (F := Ideal) x0 x3) := fun i => by
  rw [val_main_v0_apply]
  exact sum_mul_real _ _ (fun _ => h0 _) (fun _ => h3 _)

/-- The value rows. -/
theorem values_real (h0 : AllReal x0) (h3 : AllReal x3) : AllReal (val_main_v57 (F := Ideal) x0 x3) := by
  have hp := projected_real x0 x3 h0 h3
  unfold val_main_v57 val_main_v6 val_main_v3
  generalize val_main_v0 (F := Ideal) x0 x3 = P at hp ⊢
  real_entries

/-- The rotated key rows. -/
theorem keys_real (h0 : AllReal x0) (h1 : AllReal x1) (h3 : AllReal x3) : AllReal (val_main_v56 (F := Ideal) x0 x1 x3) := by
  have hp := projected_real x0 x3 h0 h3
  unfold val_main_v56 val_main_v54 val_main_v53 val_main_v51 val_main_v52 val_main_v45 val_main_v50 val_main_v42 val_main_v44 val_main_v47 val_main_v49 val_main_v38 val_main_v40 val_main_v41 val_main_v43 val_main_v46 val_main_v48 val_main_v37 val_main_v39 val_main_v34 val_main_v36 val_main_v31 val_main_v33 val_main_v35 val_main_v5 val_main_v32 val_main_v2
  generalize val_main_v0 (F := Ideal) x0 x3 = P at hp ⊢
  real_entries

/-- The rotated query rows. -/
theorem queries_real (h0 : AllReal x0) (h1 : AllReal x1) (h3 : AllReal x3) : AllReal (val_main_v55 (F := Ideal) x0 x1 x3) := by
  have hp := projected_real x0 x3 h0 h3
  unfold val_main_v55 val_main_v30 val_main_v29 val_main_v27 val_main_v28 val_main_v21 val_main_v26 val_main_v18 val_main_v20 val_main_v23 val_main_v25 val_main_v14 val_main_v16 val_main_v17 val_main_v19 val_main_v22 val_main_v24 val_main_v13 val_main_v15 val_main_v10 val_main_v12 val_main_v7 val_main_v9 val_main_v11 val_main_v4 val_main_v8 val_main_v1
  generalize val_main_v0 (F := Ideal) x0 x3 = P at hp ⊢
  real_entries

end Cert.ReferenceIdeal.RefReal

end
-- ==== Proof.PreFacts.lean ====
/-
  What the precondition says of the inputs.

  The printed predicate is the conjunction of four tests "every entry is below `+∞` in absolute value" — of `x`, of the
  angle table and of the two weight matrices — and of "every row of the mask keeps some key". An `and`-reduction that
  comes out `1` met only `1`s, an `or`-reduction that comes out `1` from `0` met a `1`; an extended real whose absolute
  value is below `⊤` is a real number.
-/
import proofs.«134167_j73263552135848_2_alg».proof.Pre_finite_inputs
import Idealize.ShloMosaic.Lib.ReduceAll
import Idealize.ShloMosaic.Lib.ValueIdx
import Idealize.ShloMosaic.PureOps.Ideal
import Idealize.ShloMosaic.PureOps.Ideal.Laws
import proofs.«134167_j73263552135848_2_alg».proof.Proof.LibRealEntries

noncomputable section

namespace Cert.Pre_finite_inputs.Decode

open Cert.Pre_finite_inputs Idealize.ShloMosaic Idealize.ShloMosaic.ValueIdx Cert.RealEntries

instance : Subsingleton S_.Idx := ⟨fun _ _ => funext fun d => d.elim0⟩

/-- An extended real whose absolute value is below `+∞` is a real number. -/
theorem real_of_finite (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · have hor : ∀ u v : BitVec 1, IntOp.ori u v = 1#1 → u = 1#1 ∨ v = 1#1 := by decide
      rcases hor _ _ h1 with h2 | h2
      · exact Or.inl h2
      · exact Or.inr ⟨a, List.mem_cons_self, h2⟩
    · exact Or.inr ⟨n, List.mem_cons_of_mem _ hn, hf⟩

/-- A reduction by `or` that is 1 at `j` started at 1 or had a 1 at an operand index that reduces into `j`. -/
theorem reduce_ori_eq_one {s t u : Shape} {axes : List (Fin s.rank)} (x : s.Idx → BitVec 1) (init : u.Idx → BitVec 1)
    (h : s.ReducesTo axes t) (hu : 0 < u.numel) (j : t.Idx) (e : Host.reduce IntOp.ori x init h hu j = 1#1) :
    init (Shape.Idx.first hu) = 1#1 ∨ ∃ i, h.drop i = j ∧ x i = 1#1 := by
  rw [Host.reduce_eq_foldl] at e
  rcases foldl_ori_eq_one x _ _ e with h1 | ⟨i, hi, hx⟩
  · exact Or.inl h1
  · rw [List.mem_filter] at hi
    exact Or.inr ⟨i, by simpa using hi.2, hx⟩

variable [Facts]

/-- One "all entries finite" test read back: the tested array holds real numbers. -/
theorem real_of_all {S : Shape} (a : FVec Ideal S .f32) (dims : Fin S_.rank → Fin S.rank) (bc : S_.BroadcastsInDim S dims)
    {axes : List (Fin S.rank)} (hr : S.ReducesTo axes S_) (hS : 0 < S_.numel)
    (h : Host.reduce IntOp.andi (cmpf .olt (Host.absf a) (broadcastInDim S dims bc (constant (F := Ideal) S_ .f32 0x7F800000#32)))
      (constantI S_ 1 1#1) hr hS ix0 = 1#1) : AllReal a := fun i =>
  real_of_finite (a i) (Host.reduce_andi_all _ _ hr hS ix0 h i)

/-- The precondition, read back: the float inputs hold real numbers and every mask row keeps a key. -/
theorem decode (a0 : FVec Ideal S4x1024x2048 .f32) (a1 : FVec Ideal S1024x32x2 .f32) (a2 : IVec S1x1x1024x1024 1)
    (a3 : FVec Ideal S3072x2048 .f32) (a4 : FVec Ideal S2048x2048 .f32)
    (h : fn (F := Ideal) a0 a1 a2 a3 a4 = fun _ => 1#1) :
    AllReal a0 ∧ AllReal a1 ∧ AllReal a3 ∧ AllReal a4
      ∧ ∀ q : Fin 1024, ∃ k : Fin 1024, a2 (ix4 (0 : Fin 1) (0 : Fin 1) q k) = 1#1 := by
  have h0 := congrFun h ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨real_of_all a0 _ _ _ _ h1, real_of_all a1 _ _ _ _ h2, real_of_all a3 _ _ _ _ h3, real_of_all a4 _ _ _ _ h4, fun q => ?_⟩
  -- the row's `or` is 1, so some key of the row is kept
  have hrow := Host.reduce_andi_all _ _ _ _ ix0 h5 (ix3 (0 : Fin 1) (0 : Fin 1) q)
  rcases reduce_ori_eq_one a2 _ _ _ _ hrow with hi | ⟨i, hd, hx⟩
  · exact absurd (show (0#1 : BitVec 1) = 1#1 from hi) (by decide)
  · refine ⟨⟨(i 3).val, (i 3).isLt⟩, ?_⟩
    have h2 : (i 2).val = q.val := by
      have e1 := Shape.ReducesTo.drop_apply_val_of_eq Facts.reducesTo_S1x1x1024x1024_S1x1x1024_d3 i 2 2
      have e2 := congrArg (fun j : S1x1x1024.Idx => (j 2 : Nat)) hd
      exact e1.symm.trans e2
    have hix : i = ix4 (0 : Fin 1) (0 : Fin 1) q ⟨(i 3).val, (i 3).isLt⟩ := funext fun a => Fin.ext (by
      match a with
      | ⟨0, _⟩ => exact Nat.lt_one_iff.mp (i 0).isLt
      | ⟨1, _⟩ => exact Nat.lt_one_iff.mp (i 1).isLt
      | ⟨2, _⟩ => exact h2
      | ⟨3, _⟩ => rfl)
    exact (congrArg a2 hix).symm.trans hx

end Cert.Pre_finite_inputs.Decode

end
-- ==== Proof.HostBridge.lean ====
/-
  Between the projection and the attention: the same host operations in both programs.

  Both programs cut the projected array `[4, 1024, 3072]` into the query, key and value parts, view them per head, turn each
  pair of lanes of the queries and of the keys by the position's angle (the products and the sum and difference with the cosine
  and sine tables), and bring the head axis forward. The kernel's program does so on the array its first region leaves, viewed
  `[4, 1024, 3072]`, with changes of float format in between that are the identity on the extended reals; the reference does so
  on its own product. So once the kernel's projected array is the reference's, the three arrays entering the attention are the
  reference's too: the two chains are the same term.
-/
import proofs.«134167_j73263552135848_2_alg».proof.Proof.Gen.KernelIdeal.Frame
import proofs.«134167_j73263552135848_2_alg».proof.Proof.Gen.ReferenceIdeal.Read
import Idealize.ShloMosaic.Lib.StableHlo.Run

set_option maxRecDepth 16384

noncomputable section

namespace Cert.KernelIdeal.HostBridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The kernel's projected array, viewed `[4, 1024, 3072]`, as the region leaves it. -/
abbrev projected (c : Dev nD) : S4x1024x3072.Idx → EReal :=
  shapeCast S4x1024x3072 (W2 m ρ c (Proc.devRef .tc main_v1)) shapeCasts_S4096x3072_S4x1024x3072

variable (c : Dev nD) (x0 : Cert.ReferenceIdeal.S4x1024x2048.Idx → EReal) (x3 : Cert.ReferenceIdeal.S3072x2048.Idx → EReal)

/-- The value rows entering the attention are the reference's. -/
theorem values_eq (hA : projected m ρ c = Cert.ReferenceIdeal.Read.val_main_v0 (F := Ideal) x0 x3) :
    (W3 m ρ c (Proc.devRef .tc main_v63) : S4x8x1024x64.Idx → EReal) = Cert.ReferenceIdeal.Read.val_main_v57 (F := Ideal) x0 x3 := by
  show StableHlo.after hostOps1 (W2 m ρ c) (Proc.devRef .tc main_v63) = _
  after_results_simp
  unfold Cert.ReferenceIdeal.Read.val_main_v57 Cert.ReferenceIdeal.Read.val_main_v6 Cert.ReferenceIdeal.Read.val_main_v3
  rw [← hA]
  rfl

/-- The rotated key rows entering the attention are the reference's. -/
theorem keys_eq (hA : projected m ρ c = Cert.ReferenceIdeal.Read.val_main_v0 (F := Ideal) x0 x3) :
    (W3 m ρ c (Proc.devRef .tc main_v62) : S4x8x1024x64.Idx → EReal)
      = Cert.ReferenceIdeal.Read.val_main_v56 (F := Ideal) x0 (W2 m ρ c (Proc.devRef .tc main_arg1)) x3 := by
  show StableHlo.after hostOps1 (W2 m ρ c) (Proc.devRef .tc main_v62) = _
  after_results_simp
  unfold Cert.ReferenceIdeal.Read.val_main_v56 Cert.ReferenceIdeal.Read.val_main_v54 Cert.ReferenceIdeal.Read.val_main_v53 Cert.ReferenceIdeal.Read.val_main_v51 Cert.ReferenceIdeal.Read.val_main_v52 Cert.ReferenceIdeal.Read.val_main_v45 Cert.ReferenceIdeal.Read.val_main_v50 Cert.ReferenceIdeal.Read.val_main_v42 Cert.ReferenceIdeal.Read.val_main_v44 Cert.ReferenceIdeal.Read.val_main_v47 Cert.ReferenceIdeal.Read.val_main_v49 Cert.ReferenceIdeal.Read.val_main_v38 Cert.ReferenceIdeal.Read.val_main_v40 Cert.ReferenceIdeal.Read.val_main_v41 Cert.ReferenceIdeal.Read.val_main_v43 Cert.ReferenceIdeal.Read.val_main_v46 Cert.ReferenceIdeal.Read.val_main_v48 Cert.ReferenceIdeal.Read.val_main_v37 Cert.ReferenceIdeal.Read.val_main_v39 Cert.ReferenceIdeal.Read.val_main_v34 Cert.ReferenceIdeal.Read.val_main_v36 Cert.ReferenceIdeal.Read.val_main_v31 Cert.ReferenceIdeal.Read.val_main_v33 Cert.ReferenceIdeal.Read.val_main_v35 Cert.ReferenceIdeal.Read.val_main_v5 Cert.ReferenceIdeal.Read.val_main_v32 Cert.ReferenceIdeal.Read.val_main_v2
  rw [← hA]
  rfl

/-- The rotated query rows entering the attention are the reference's. -/
theorem queries_eq (hA : projected m ρ c = Cert.ReferenceIdeal.Read.val_main_v0 (F := Ideal) x0 x3) :
    (W3 m ρ c (Proc.devRef .tc main_v61) : S4x32x1024x64.Idx → EReal)
      = Cert.ReferenceIdeal.Read.val_main_v55 (F := Ideal) x0 (W2 m ρ c (Proc.devRef .tc main_arg1)) x3 := by
  show StableHlo.after hostOps1 (W2 m ρ c) (Proc.devRef .tc main_v61) = _
  after_results_simp
  unfold Cert.ReferenceIdeal.Read.val_main_v55 Cert.ReferenceIdeal.Read.val_main_v30 Cert.ReferenceIdeal.Read.val_main_v29 Cert.ReferenceIdeal.Read.val_main_v27 Cert.ReferenceIdeal.Read.val_main_v28 Cert.ReferenceIdeal.Read.val_main_v21 Cert.ReferenceIdeal.Read.val_main_v26 Cert.ReferenceIdeal.Read.val_main_v18 Cert.ReferenceIdeal.Read.val_main_v20 Cert.ReferenceIdeal.Read.val_main_v23 Cert.ReferenceIdeal.Read.val_main_v25 Cert.ReferenceIdeal.Read.val_main_v14 Cert.ReferenceIdeal.Read.val_main_v16 Cert.ReferenceIdeal.Read.val_main_v17 Cert.ReferenceIdeal.Read.val_main_v19 Cert.ReferenceIdeal.Read.val_main_v22 Cert.ReferenceIdeal.Read.val_main_v24 Cert.ReferenceIdeal.Read.val_main_v13 Cert.ReferenceIdeal.Read.val_main_v15 Cert.ReferenceIdeal.Read.val_main_v10 Cert.ReferenceIdeal.Read.val_main_v12 Cert.ReferenceIdeal.Read.val_main_v7 Cert.ReferenceIdeal.Read.val_main_v9 Cert.ReferenceIdeal.Read.val_main_v11 Cert.ReferenceIdeal.Read.val_main_v4 Cert.ReferenceIdeal.Read.val_main_v8 Cert.ReferenceIdeal.Read.val_main_v1
  rw [← hA]
  rfl

/-- The mask entering the attention is the boolean mask widened to 32 bits. -/
theorem mask_eq :
    (W3 m ρ c (Proc.devRef .tc main_v64) : S1x1x1024x1024.Idx → BitVec 32)
      = extui 32 (W2 m ρ c (Proc.devRef .tc main_arg2)) natLt_1_32 := by
  show StableHlo.after hostOps1 (W2 m ρ c) (Proc.devRef .tc main_v64) = _
  after_results_simp

end Cert.KernelIdeal.HostBridge

end
-- ==== Proof.ArgReads.lean ====
/-
  The argument arrays as the regions find them.

  No host operation and no region of the program writes an argument array, so at every segment boundary an argument's buffer
  still holds the launch memory; and the first region's left factor is `x` viewed as `4096` rows.
-/
import proofs.«134167_j73263552135848_2_alg».proof.Proof.Gen.KernelIdeal.Frame
import Idealize.ShloMosaic.Lib.StableHlo.Run

set_option maxRecDepth 16384

noncomputable section

namespace Cert.KernelIdeal.ArgReads

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a stretch writes the buffer `b`: each operation's written buffer is another one. -/
macro "not_written" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The first region's right factor is the projection weight matrix. -/
theorem W1_arg3 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (by not_written hostOps0)
    _ = m ((c : Thread nD τ).loc main_arg3) := rfl

/-- The first region's left factor is `x` viewed as `4096` rows of `2048`. -/
theorem W1_v0 : W1 m ρ c (Proc.devRef .tc main_v0)
    = shapeCast S4096x2048 (m ((c : Thread nD τ).loc main_arg0)) shapeCasts_S4x1024x2048_S4096x2048 := by
  show StableHlo.after hostOps0 (W0 m ρ c) (Proc.devRef .tc main_v0) = _
  after_results
  rfl

/-- The angle table, as the middle stretch finds it. -/
theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by not_written hostOps0)
    _ = m ((c : Thread nD τ).loc main_arg1) := rfl

/-- The mask, as the middle stretch finds it. -/
theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (by not_written hostOps0)
    _ = m ((c : Thread nD τ).loc main_arg2) := rfl

/-- The output weight matrix, as the last region finds it. -/
theorem W5_arg4 : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (by not_written hostOps2)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by not_written hostOps1)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (by not_written hostOps0)
    _ = m ((c : Thread nD τ).loc main_arg4) := rfl

/-- The result is the last region's array viewed `[4, 1024, 2048]`. -/
theorem W7_result : W7 m ρ c (Proc.devRef .tc main_v69)
    = shapeCast S4x1024x2048 (W6 m ρ c (Proc.devRef .tc main_v68)) shapeCasts_S4096x2048_S4x1024x2048 := by
  show StableHlo.after hostOps3 (W6 m ρ c) (Proc.devRef .tc main_v69) = _
  after_results
  rfl

/-- The last region's left factor is the attention's output, heads brought back behind the positions, viewed as
    `4096` rows of `2048`. -/
theorem W5_v67 : W5 m ρ c (Proc.devRef .tc main_v67)
    = shapeCast S4096x2048 (transpose S4x1024x32x64 [0, 2, 1, 3] (W4 m ρ c (Proc.devRef .tc main_v65))
        transposes_S4x32x1024x64_S4x1024x32x64_0_2_1_3) shapeCasts_S4x1024x32x64_S4096x2048 := by
  show StableHlo.after hostOps2 (W4 m ρ c) (Proc.devRef .tc main_v67) = _
  after_results
  rfl

end Cert.KernelIdeal.ArgReads

end
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.Assemble.lean ====
/-
  The kernel's result is the reference's.

  Three steps, one per region. (1) The first region's product, viewed `[4, 1024, 3072]`, is the reference's projection: entry
  `(b, s, e)` of both is the inner product of row `(b, s)` of `x` with row `e` of the weights. (2) The arrays entering the
  attention are then the same (the host operations between are the same), every head of the second region's output is the head's
  output normalised after the weighted sum, the reference's is the same head normalised before it, and with real queries, keys
  and values and a kept key in every mask row the two orders agree. (3) The third region's product, viewed `[4, 1024, 2048]`,
  is the reference's output projection of the same attended array: the rows `(b, s)` of the two views are the same `2048`
  entries.
-/
import proofs.«134167_j73263552135848_2_alg».proof.Proof.Gen.KernelIdeal.Frame
import proofs.«134167_j73263552135848_2_alg».proof.Proof.Gen.ReferenceIdeal.Read
import proofs.«134167_j73263552135848_2_alg».proof.Proof.HostBridge
import proofs.«134167_j73263552135848_2_alg».proof.Proof.ArgReads
import proofs.«134167_j73263552135848_2_alg».proof.Proof.HeadSpec
import proofs.«134167_j73263552135848_2_alg».proof.Proof.LibRealEntries
import proofs.«134167_j73263552135848_2_alg».proof.Proof.LibRank3Layout
import proofs.«134167_j73263552135848_2_alg».proof.Proof.LibGroupsToRows
import Idealize.ShloMosaic.Lib.Pipeline.Value
import Idealize.ShloMosaic.Lib.ValueIdx

set_option maxRecDepth 16384

noncomputable section

namespace Cert.KernelIdeal.Assemble

open Cert.KernelIdeal Cert.KernelIdeal.Gen Idealize.ShloMosaic Idealize.ShloMosaic.ValueIdx Idealize.ShloMosaic.TcCoe Idealize.SL.Sem
open Cert.ReferenceIdeal.Read Cert.RealEntries

/-- Two views of one array agree at indices with the same row-major position. -/
theorem shapeCast_eq_shapeCast {s t1 t2 : Shape} {α : Type} (x : s.Idx → α) (h1 : s.ShapeCasts t1) (h2 : s.ShapeCasts t2)
    (j1 : t1.Idx) (j2 : t2.Idx) (hj : (t1.rowMajor j1).val = (t2.rowMajor j2).val) :
    shapeCast t1 x h1 j1 = shapeCast t2 x h2 j2 :=
  shapeCast_apply x h1 j1 (Shape.reshapeEquiv h2 j2) ((Shape.rowMajor_reshapeEquiv h2 j2).trans hj.symm)

/-- A mask bit widened to 32 bits is nonzero exactly when it is set. -/
theorem keep_bit (b : BitVec 1) : IntOp.cmpi .ne (b.setWidth 32) 0#32 = b := by revert b; decide

variable (m : (ℓ : Loc nD τ sig) → Buf (Elt Ideal) ℓ) (ρ : Dev nD → PrngReg) (c : Dev nD)

/-! ## (1) The projection -/

/-- The first region's product, viewed per batch and position, is the reference's projection. -/
theorem projected_eq
    (hR0 : ∀ (p : Fin 4096) (q : Fin 3072), ((dat0 (F := Ideal) (V1 m ρ) c).arrAt 2 cfg0.N : S4096x3072.Idx → EReal) (ix2 p q)
      = ∑ e : Fin 2048, (HMul.hMul : EReal → EReal → EReal) (V1 m ρ c main_v0 (ix2 p e)) (V1 m ρ c main_arg3 (ix2 q e))) :
    HostBridge.projected m ρ c = val_main_v0 (F := Ideal) (m ((c : Thread nD τ).loc main_arg0)) (m ((c : Thread nD τ).loc main_arg3)) := by
  funext i
  obtain ⟨b, s, e, rfl⟩ : ∃ (b : Fin 4) (s : Fin 1024) (e : Fin 3072), i = ix3 b s e := ⟨i 0, i 1, i 2, eq_ix3 i⟩
  have hrow : b.val * 1024 + s.val < 4096 := by omega
  have hW : W2 m ρ c (Proc.devRef .tc main_v1) = (dat0 (F := Ideal) (V1 m ρ) c).arrAt 2 cfg0.N := W2_arr m ρ c 2
  rw [val_main_v0_apply]
  refine (Cert.LibRank3.shapeCast_rows_apply _ _ b s e hrow).trans ?_
  rw [hW, hR0]
  refine Finset.sum_congr rfl fun k _ => ?_
  have h1 : V1 m ρ c main_v0 (ix2 ⟨b.val * 1024 + s.val, hrow⟩ k) = (m ((c : Thread nD τ).loc main_arg0)) (lidx_main_v0 (ix3 b s e) k) := by
    show W1 m ρ c (Proc.devRef .tc main_v0) (ix2 ⟨b.val * 1024 + s.val, hrow⟩ k) = _
    rw [ArgReads.W1_v0]
    refine (Cert.Layout.shapeCast_groups_rows_apply _ _ b s k hrow).trans ?_
    exact congrArg _ (funext fun a => Fin.ext (by match a with | ⟨0, _⟩ => rfl | ⟨1, _⟩ => rfl | ⟨2, _⟩ => rfl))
  have h2 : V1 m ρ c main_arg3 (ix2 e k) = (m ((c : Thread nD τ).loc main_arg3)) (ridx_main_v0 (ix3 b s e) k) := by
    show W1 m ρ c (Proc.devRef .tc main_arg3) (ix2 e k) = _
    rw [ArgReads.W1_arg3]
    exact congrArg _ (funext fun a => Fin.ext (by match a with | ⟨0, _⟩ => rfl | ⟨1, _⟩ => rfl))
  rw [h1, h2]

/-! ## (2) The attention -/

/-- The second region's output is the reference's attended array. -/
theorem attended_eq (h0 : AllReal (m ((c : Thread nD τ).loc main_arg0))) (h1 : AllReal (m ((c : Thread nD τ).loc main_arg1))) (h3 : AllReal (m ((c : Thread nD τ).loc main_arg3)))
    (hmask : ∀ q : Fin 1024, ∃ k : Fin 1024, (m ((c : Thread nD τ).loc main_arg2)) (ix4 (0 : Fin 1) (0 : Fin 1) q k) = 1#1)
    (hQr : AllReal (val_main_v55 (F := Ideal) (m ((c : Thread nD τ).loc main_arg0)) (m ((c : Thread nD τ).loc main_arg1)) (m ((c : Thread nD τ).loc main_arg3)))) (hKr : AllReal (val_main_v56 (F := Ideal) (m ((c : Thread nD τ).loc main_arg0)) (m ((c : Thread nD τ).loc main_arg1)) (m ((c : Thread nD τ).loc main_arg3))))
    (hVr : AllReal (val_main_v57 (F := Ideal) (m ((c : Thread nD τ).loc main_arg0)) (m ((c : Thread nD τ).loc main_arg3))))
    (hA : HostBridge.projected m ρ c = val_main_v0 (F := Ideal) (m ((c : Thread nD τ).loc main_arg0)) (m ((c : Thread nD τ).loc main_arg3)))
    (hR1 : ∀ (b : Fin 4) (h : Fin 32) (q : Fin 1024) (d : Fin 64), ((dat1 (F := Ideal) (V3 m ρ) c).arrAt 4 cfg1.N : S4x32x1024x64.Idx → EReal) (ix4 b h q d)
      = Cert.Head.after (fun a e => V3 m ρ c main_v61 (ix4 b h a e)) (fun a e => V3 m ρ c main_v62 (ix4 b (Cert.Head.kvOf h) a e))
          (fun a e => V3 m ρ c main_v63 (ix4 b (Cert.Head.kvOf h) a e))
          (fun a k => IntOp.cmpi .ne (V3 m ρ c main_v64 (ix4 (0 : Fin 1) (0 : Fin 1) a k)) 0#32) q d)
    (hRef : ∀ (b : Fin 4) (h : Fin 32) (q : Fin 1024) (d : Fin 64), val_main_v77 (F := Ideal) (m ((c : Thread nD τ).loc main_arg0)) (m ((c : Thread nD τ).loc main_arg1)) (m ((c : Thread nD τ).loc main_arg2)) (m ((c : Thread nD τ).loc main_arg3)) (ix4 b h q d)
      = Cert.Head.before (fun a e => val_main_v55 (F := Ideal) (m ((c : Thread nD τ).loc main_arg0)) (m ((c : Thread nD τ).loc main_arg1)) (m ((c : Thread nD τ).loc main_arg3)) (ix4 b h a e))
          (fun a e => val_main_v56 (F := Ideal) (m ((c : Thread nD τ).loc main_arg0)) (m ((c : Thread nD τ).loc main_arg1)) (m ((c : Thread nD τ).loc main_arg3)) (ix4 b (Cert.Head.kvOf h) a e))
          (fun a e => val_main_v57 (F := Ideal) (m ((c : Thread nD τ).loc main_arg0)) (m ((c : Thread nD τ).loc main_arg3)) (ix4 b (Cert.Head.kvOf h) a e))
          (fun a k => (m ((c : Thread nD τ).loc main_arg2)) (ix4 (0 : Fin 1) (0 : Fin 1) a k)) q d) :
    (W4 m ρ c (Proc.devRef .tc main_v65) : S4x32x1024x64.Idx → EReal) = val_main_v77 (F := Ideal) (m ((c : Thread nD τ).loc main_arg0)) (m ((c : Thread nD τ).loc main_arg1)) (m ((c : Thread nD τ).loc main_arg2)) (m ((c : Thread nD τ).loc main_arg3)) := by
  funext i
  obtain ⟨b, h, q, d, rfl⟩ : ∃ (b : Fin 4) (h : Fin 32) (q : Fin 1024) (d : Fin 64), i = ix4 b h q d :=
    ⟨i 0, i 1, i 2, i 3, eq_ix4 i⟩
  have hW : W4 m ρ c (Proc.devRef .tc main_v65) = (dat1 (F := Ideal) (V3 m ρ) c).arrAt 4 cfg1.N := W4_arr m ρ c 4
  have eq : (V3 m ρ c main_v61 : S4x32x1024x64.Idx → EReal) = val_main_v55 (F := Ideal) (m ((c : Thread nD τ).loc main_arg0)) (m ((c : Thread nD τ).loc main_arg1)) (m ((c : Thread nD τ).loc main_arg3)) := by
    have := HostBridge.queries_eq m ρ c (m ((c : Thread nD τ).loc main_arg0)) (m ((c : Thread nD τ).loc main_arg3)) hA
    rw [ArgReads.W2_arg1] at this
    exact this
  have ek : (V3 m ρ c main_v62 : S4x8x1024x64.Idx → EReal) = val_main_v56 (F := Ideal) (m ((c : Thread nD τ).loc main_arg0)) (m ((c : Thread nD τ).loc main_arg1)) (m ((c : Thread nD τ).loc main_arg3)) := by
    have := HostBridge.keys_eq m ρ c (m ((c : Thread nD τ).loc main_arg0)) (m ((c : Thread nD τ).loc main_arg3)) hA
    rw [ArgReads.W2_arg1] at this
    exact this
  have ev : (V3 m ρ c main_v63 : S4x8x1024x64.Idx → EReal) = val_main_v57 (F := Ideal) (m ((c : Thread nD τ).loc main_arg0)) (m ((c : Thread nD τ).loc main_arg3)) :=
    HostBridge.values_eq m ρ c (m ((c : Thread nD τ).loc main_arg0)) (m ((c : Thread nD τ).loc main_arg3)) hA
  have em : ∀ a k : Fin 1024, IntOp.cmpi .ne (V3 m ρ c main_v64 (ix4 (0 : Fin 1) (0 : Fin 1) a k)) 0#32
      = (m ((c : Thread nD τ).loc main_arg2)) (ix4 (0 : Fin 1) (0 : Fin 1) a k) := fun a k => by
    have := HostBridge.mask_eq m ρ c
    rw [ArgReads.W2_arg2] at this
    show IntOp.cmpi .ne ((W3 m ρ c (Proc.devRef .tc main_v64) : S1x1x1024x1024.Idx → BitVec 32) (ix4 (0 : Fin 1) (0 : Fin 1) a k)) 0#32 = _
    rw [this]
    exact keep_bit _
  rw [hW, hR1, hRef, eq, ek, ev]
  simp only [em]
  exact Cert.Head.after_eq_before _ _ _ _ (fun a e => hQr _) (fun a e => hKr _) (fun a e => hVr _) q (hmask q) d

/-! ## (3) The output projection -/

/-- The kernel's result array, as the last stretch leaves it. -/
abbrev result : S4x1024x2048.Idx → EReal := W7 m ρ c (Proc.devRef .tc main_v69)

/-- The kernel's result is the reference's last stage. -/
theorem result_eq
    (hO : (W4 m ρ c (Proc.devRef .tc main_v65) : S4x32x1024x64.Idx → EReal) = val_main_v77 (F := Ideal) (m ((c : Thread nD τ).loc main_arg0)) (m ((c : Thread nD τ).loc main_arg1)) (m ((c : Thread nD τ).loc main_arg2)) (m ((c : Thread nD τ).loc main_arg3)))
    (hR2 : ∀ (p : Fin 4096) (q : Fin 2048), ((dat2 (F := Ideal) (V5 m ρ) c).arrAt 2 cfg2.N : S4096x2048.Idx → EReal) (ix2 p q)
      = ∑ e : Fin 2048, (HMul.hMul : EReal → EReal → EReal) (V5 m ρ c main_v67 (ix2 p e)) (V5 m ρ c main_arg4 (ix2 q e))) :
    result m ρ c = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, e, rfl⟩ : ∃ (b : Fin 4) (s : Fin 1024) (e : Fin 2048), i = ix3 b s e := ⟨i 0, i 1, i 2, eq_ix3 i⟩
  have hrow : b.val * 1024 + s.val < 4096 := by omega
  have hW : W6 m ρ c (Proc.devRef .tc main_v68) = (dat2 (F := Ideal) (V5 m ρ) c).arrAt 2 cfg2.N := W6_arr m ρ c 2
  have hres : result m ρ c = shapeCast S4x1024x2048 (W6 m ρ c (Proc.devRef .tc main_v68)) shapeCasts_S4096x2048_S4x1024x2048 :=
    ArgReads.W7_result m ρ c
  rw [val_main_v80_apply, hres]
  refine (Cert.LibRank3.shapeCast_rows_apply _ _ b s e hrow).trans ?_
  rw [hW, hR2]
  refine Finset.sum_congr rfl fun k _ => ?_
  have h1 : V5 m ρ c main_v67 (ix2 ⟨b.val * 1024 + s.val, hrow⟩ k)
      = val_main_v79 (F := Ideal) (m ((c : Thread nD τ).loc main_arg0)) (m ((c : Thread nD τ).loc main_arg1)) (m ((c : Thread nD τ).loc main_arg2)) (m ((c : Thread nD τ).loc main_arg3)) (lidx_main_v80 (ix3 b s e) k) := by
    show W5 m ρ c (Proc.devRef .tc main_v67) (ix2 ⟨b.val * 1024 + s.val, hrow⟩ k) = _
    rw [ArgReads.W5_v67, hO]
    unfold val_main_v79 val_main_v78
    refine shapeCast_eq_shapeCast _ _ _ _ _ ?_
    rw [Shape.rowMajor_val_two, Shape.rowMajor_val_three]
    rfl
  have h2 : V5 m ρ c main_arg4 (ix2 e k) = (m ((c : Thread nD τ).loc main_arg4)) (ridx_main_v80 (ix3 b s e) k) := by
    show W5 m ρ c (Proc.devRef .tc main_arg4) (ix2 e k) = _
    rw [ArgReads.W5_arg4]
    exact congrArg _ (funext fun a => Fin.ext (by match a with | ⟨0, _⟩ => rfl | ⟨1, _⟩ => rfl))
  rw [h1, h2]

end Cert.KernelIdeal.Assemble

end
-- ==== Proof.lean ====
/-
  The certificate: a three-region attention kernel against its jnp reference, at the exact extended reals.

  The kernel projects `x` onto queries, keys and values (a tiled matrix product), rotates queries and keys by the position's
  angles on the host, runs causal-style masked softmax attention per group of four query heads sharing one key/value head
  (a pipelined region: scores, row maximum, exponentials, row sums, weighted values divided by the row sums), and projects
  the attended rows back (a second tiled matrix product). The reference does the same with whole-array operations, dividing
  the softmax weights by their row sums BEFORE the weighted sum of the values. On the extended reals the two agree when the
  float inputs are finite and every row of the mask keeps at least one key: then every score row has a real maximum, the
  normaliser is a positive real number, and `(∑ P V) / L = ∑ (P / L) V`.

  The three frames are the generated frame proofs (the reference's: its generated run with the result dropped). `preserves`
  is the one rewrite of the ideal pass, four times: the mask fill is named `-∞`. `algebraic`: the kernel's run names its
  result as the fold of its segments (`Whole.run`), that fold is the reference's last stage of the same arguments
  (`kernel_result`: `Assemble`'s three steps over the regions' whole-array forms), and the reference's generated run ends
  at that stage.
-/
import proofs.«134167_j73263552135848_2_alg».proof.Defs
import proofs.«134167_j73263552135848_2_alg».proof.Proof.Gen.Kernel
import proofs.«134167_j73263552135848_2_alg».proof.Proof.Gen.Kernel.Skeleton
import proofs.«134167_j73263552135848_2_alg».proof.Proof.Gen.Kernel.Launch
import proofs.«134167_j73263552135848_2_alg».proof.Proof.Gen.Kernel.Points
import proofs.«134167_j73263552135848_2_alg».proof.Proof.Gen.Kernel.Frame
import proofs.«134167_j73263552135848_2_alg».proof.Proof.Gen.KernelIdeal
import proofs.«134167_j73263552135848_2_alg».proof.Proof.Gen.KernelIdeal.Skeleton
import proofs.«134167_j73263552135848_2_alg».proof.Proof.Gen.KernelIdeal.Launch
import proofs.«134167_j73263552135848_2_alg».proof.Proof.Gen.KernelIdeal.Points
import proofs.«134167_j73263552135848_2_alg».proof.Proof.Gen.KernelIdeal.Frame
import proofs.«134167_j73263552135848_2_alg».proof.Proof.Gen.ReferenceIdeal
import proofs.«134167_j73263552135848_2_alg».proof.Proof.Gen.Pre_finite_inputs
import proofs.«134167_j73263552135848_2_alg».proof.Proof.Gen.ReferenceIdeal.Run
import proofs.«134167_j73263552135848_2_alg».proof.Proof.Gen.ReferenceIdeal.Read
import proofs.«134167_j73263552135848_2_alg».proof.Proof.KernelRun
import proofs.«134167_j73263552135848_2_alg».proof.Proof.ProjRegion
import proofs.«134167_j73263552135848_2_alg».proof.Proof.AttnRegion
import proofs.«134167_j73263552135848_2_alg».proof.Proof.HeadRead
import proofs.«134167_j73263552135848_2_alg».proof.Proof.RefAttn
import proofs.«134167_j73263552135848_2_alg».proof.Proof.RefReal
import proofs.«134167_j73263552135848_2_alg».proof.Proof.PreFacts
import proofs.«134167_j73263552135848_2_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem

section KernelValue

open Cert.KernelIdeal Cert.KernelIdeal.Gen Cert.ReferenceIdeal.Read

variable (m : (ℓ : Loc nD τ sig) → Buf (Elt Ideal) ℓ) (ρ : Dev nD → PrngReg) (c : Dev nD)

/-- Under the precondition the fold of the kernel's segments, read at the result buffer, is the reference's last stage of the
    kernel's own arguments. -/
theorem kernel_result
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (W7 m ρ c (Proc.devRef .tc main_v69) : S4x1024x2048.Idx → EReal)
      = val_main_v80 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  obtain ⟨h0, h1, h3, -, hmask⟩ := Cert.Pre_finite_inputs.Decode.decode _ _ _ _ _ hpre
  have hA := Cert.KernelIdeal.Assemble.projected_eq m ρ c
    (fun p q => Cert.KernelIdeal.ProjRegion.qkv_arr_apply (V1 m ρ) c p q)
  have hO := Cert.KernelIdeal.Assemble.attended_eq m ρ c h0 h1 h3 hmask
    (Cert.ReferenceIdeal.RefReal.queries_real _ _ _ h0 h1 h3) (Cert.ReferenceIdeal.RefReal.keys_real _ _ _ h0 h1 h3)
    (Cert.ReferenceIdeal.RefReal.values_real _ _ h0 h3) hA
    (fun b h q d => (Cert.KernelIdeal.AttnRegion.attn_arr_apply (V3 m ρ) c b h q d).trans
      (Cert.KernelIdeal.HeadRead.head_apply _ _ _ _ q d))
    (fun b h q d => Cert.ReferenceIdeal.RefAttn.attn_apply _ _ _ _ b h q d)
  exact Cert.KernelIdeal.Assemble.result_eq m ρ c hO
    (fun p q => Cert.KernelIdeal.ProjRegion.out_arr_apply (V5 m ρ) c p q)

end KernelValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass's one rewrite, at its four sites: the kernel's finite mask fill is named `-∞`, which is what the printed
    constant denotes at the exact instance by the certificate's table. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

/-- Both programs, run from memories that agree on the arguments, end with the reference's last stage of those arguments. -/
theorem algebraic : Cert.algebraic_KernelIdeal_ReferenceIdeal := by
  intro m ρ m' ρ' hpre hagree
  refine ⟨fun c => Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (kernel_result m ρ c (hpre c)), (h c).2⟩) (Cert.KernelIdeal.Whole.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v80_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
